-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S64x4096 : Shape := ⟨2, ![64, 4096]⟩
abbrev S4096 : Shape := ⟨1, ![4096]⟩
abbrev S4096x32 : Shape := ⟨2, ![4096, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg5 : FVec F S4096x32 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x32 .f32 := Host.absf main_arg5
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  main_v23

def fn {F : FTy → Type} [FloatOps F] (main_arg0 : FVec F S8192x4096 .f32) (main_arg1 : IVec S4096x4096 32) (main_arg2 : FVec F S64x4096 .f32) (main_arg3 : FVec F S4096 .f32) (main_arg4 : FVec F S4096x32 .f32) (main_arg5 : FVec F S4096x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x4096 .f32 := Host.absf main_arg2
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x32 .f32 := Host.absf main_arg4
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg5 main_v13 main_v16
-- ==== Kernel.lean ====
abbrev S8192x4096 : Shape := ⟨2, ![8192, 4096]⟩
abbrev S4096x4096 : Shape := ⟨2, ![4096, 4096]⟩
abbrev S64x4096 : Shape := ⟨2, ![64, 4096]⟩
abbrev S4096 : Shape := ⟨1, ![4096]⟩
abbrev S4096x32 : Shape := ⟨2, ![4096, 32]⟩
abbrev S1x4096 : Shape := ⟨2, ![1, 4096]⟩
abbrev S8192x32 : Shape := ⟨2, ![8192, 32]⟩
abbrev S512x4096 : Shape := ⟨2, ![512, 4096]⟩
abbrev S512x32 : Shape := ⟨2, ![512, 32]⟩
abbrev S512x64x64 : Shape := ⟨3, ![512, 64, 64]⟩
abbrev S512x64 : Shape := ⟨2, ![512, 64]⟩
abbrev S512x64x1 : Shape := ⟨3, ![512, 64, 1]⟩
abbrev S4096x64 : Shape := ⟨2, ![4096, 64]⟩
abbrev S32x4096 : Shape := ⟨2, ![32, 4096]⟩
abbrev S1024x4096 : Shape := ⟨2, ![1024, 4096]⟩
abbrev S1024x32 : Shape := ⟨2, ![1024, 32]⟩
abbrev S32x1024 : Shape := ⟨2, ![32, 1024]⟩
abbrev S1024x1024 : Shape := ⟨2, ![1024, 1024]⟩
abbrev S4096x1024 : Shape := ⟨2, ![4096, 1024]⟩

abbrev nBuf : Space → Nat
  | .hbm => 13
  | .vmem => 24
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S64x4096, .f32⟩
  | .hbm, ⟨3, _⟩ => ⟨S4096, .f32⟩
  | .hbm, ⟨4, _⟩ => ⟨S4096x32, .f32⟩
  | .hbm, ⟨5, _⟩ => ⟨S4096x32, .f32⟩
  | .hbm, ⟨6, _⟩ => ⟨S1x4096, .f32⟩
  | .hbm, ⟨7, _⟩ => ⟨S8192x4096, .bf16⟩
  | .hbm, ⟨8, _⟩ => ⟨S8192x32, .f32⟩
  | .hbm, ⟨9, _⟩ => ⟨S4096x64, .f32⟩
  | .hbm, ⟨10, _⟩ => ⟨S4096x4096, .bf16⟩
  | .hbm, ⟨11, _⟩ => ⟨S32x4096, .f32⟩
  | .hbm, ⟨12, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x32, .f32⟩
  | .local _ .vmem, ⟨4, _⟩ => ⟨S512x4096, .bf16⟩
  | .local _ .vmem, ⟨5, _⟩ => ⟨S512x4096, .bf16⟩
  | .local _ .vmem, ⟨6, _⟩ => ⟨S512x32, .f32⟩
  | .local _ .vmem, ⟨7, _⟩ => ⟨S512x32, .f32⟩
  | .local _ .vmem, ⟨8, _⟩ => ⟨S512x4096, .i32⟩
  | .local _ .vmem, ⟨9, _⟩ => ⟨S512x4096, .i32⟩
  | .local _ .vmem, ⟨10, _⟩ => ⟨S512x64, .f32⟩
  | .local _ .vmem, ⟨11, _⟩ => ⟨S512x64, .f32⟩
  | .local _ .vmem, ⟨12, _⟩ => ⟨S512x4096, .bf16⟩
  | .local _ .vmem, ⟨13, _⟩ => ⟨S512x4096, .bf16⟩
  | .local _ .vmem, ⟨14, _⟩ => ⟨S1024x4096, .bf16⟩
  | .local _ .vmem, ⟨15, _⟩ => ⟨S1024x4096, .bf16⟩
  | .local _ .vmem, ⟨16, _⟩ => ⟨S1024x4096, .bf16⟩
  | .local _ .vmem, ⟨17, _⟩ => ⟨S1024x4096, .bf16⟩
  | .local _ .vmem, ⟨18, _⟩ => ⟨S1024x32, .f32⟩
  | .local _ .vmem, ⟨19, _⟩ => ⟨S1024x32, .f32⟩
  | .local _ .vmem, ⟨20, _⟩ => ⟨S32x1024, .f32⟩
  | .local _ .vmem, ⟨21, _⟩ => ⟨S32x1024, .f32⟩
  | .local _ .vmem, ⟨22, _⟩ => ⟨S1024x1024, .f32⟩
  | .local _ .vmem, ⟨23, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S32x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S512x4096_S512x64x64 : S512x4096.ShapeCasts S512x64x64
  reduces_S512x64x64_S512x64 : S512x64x64.Reduces [2] S512x64
  shapeCasts_S512x64_S512x64x1 : S512x64.ShapeCasts S512x64x1
  broadcasts_S512x64x1_S512x64x64 : S512x64x1.Broadcasts S512x64x64
  shapeCasts_S512x64x64_S512x4096 : S512x64x64.ShapeCasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S4096x32_S4096x32_0_0 : ∀ a, (![0, 0] : Fin 2 → Nat) a + S4096x32.size a ≤ S4096x32.size a
  h_S4096x32 : 0 < S4096x32.numel
  inb_S512x32_S512x32_0_0 : ∀ a, (![0, 0] : Fin 2 → Nat) a + S512x32.size a ≤ S512x32.size a
  h_S512x32 : 0 < S512x32.numel
  transposes_S64x4096_S4096x64_1_0 : S64x4096.Transposes [1, 0] S4096x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  transposes_S4096x32_S32x4096_1_0 : S4096x32.Transposes [1, 0] S32x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  transposes_S1024x4096_p1_0_S4096x1024 : S1024x4096.Transposes [1, 0] S4096x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x1024_S1024x1024_0_0 : ∀ a, (![0, 0] : Fin 2 → Nat) a + S1024x1024.size a ≤ S1024x1024.size a
  h_S1024x1024 : 0 < S1024x1024.numel
  dot_S512x4096_S4096x32_S512x32_1_0_0_1_n_n_wf : DotDims.WF S512x4096 S4096x32 S512x32 [1] [0] [0] [1] [] []
  dot_S1024x4096_S4096x1024_S1024x1024_1_0_0_1_n_n_wf : DotDims.WF S1024x4096 S4096x1024 S1024x1024 [1] [0] [0] [1] [] []
  dot_S1024x32_S32x1024_S1024x1024_1_0_0_1_n_n_wf : DotDims.WF S1024x32 S32x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S4096x32.size a
  hwx0_2 : ∀ i : grid0.Coords, EltTy.bits .f32 = 32 ∨ (Rect.block (s := S4096x32) S4096x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .bf16 = 32 ∨ (Rect.block (s := S8192x4096) S512x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S8192x32.size a
  hwx0_4 : ∀ i : grid0.Coords, EltTy.bits .f32 = 32 ∨ (Rect.block (s := S8192x32) S512x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .i32 = 32 ∨ (Rect.block (s := S4096x4096) S512x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S4096x64.size a
  hwx1_1 : ∀ i : grid1.Coords, EltTy.bits .f32 = 32 ∨ (Rect.block (s := S4096x64) S512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .bf16 = 32 ∨ (Rect.block (s := S4096x4096) S512x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x4096.size a
  hwx2_0 : ∀ i : grid2.Coords, EltTy.bits .bf16 = 32 ∨ (Rect.block (s := S8192x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S4096x4096.size a
  hwx2_1 : ∀ i : grid2.Coords, EltTy.bits .bf16 = 32 ∨ (Rect.block (s := S4096x4096) S1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x32.size a ≤ S8192x32.size a
  hwx2_2 : ∀ i : grid2.Coords, EltTy.bits .f32 = 32 ∨ (Rect.block (s := S8192x32) S1024x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S32x1024.size a ≤ S32x4096.size a
  hwx2_3 : ∀ i : grid2.Coords, EltTy.bits .f32 = 32 ∨ (Rect.block (s := S32x4096) S32x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x4096.size a
  hwx2_4 : ∀ i : grid2.Coords, EltTy.bits .f32 = 32 ∨ (Rect.block (s := S8192x4096) S1024x1024.size (cc2_transform_4 i) (hinb2_4 i)).WholeWords (EltTy.packing .f32)

variable [Facts₀]

def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4096x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S512x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1_0) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S1024x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S32x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S64x4096 : Shape := ⟨2, ![64, 4096]⟩
abbrev S4096 : Shape := ⟨1, ![4096]⟩
abbrev S4096x32 : Shape := ⟨2, ![4096, 32]⟩
abbrev S1x4096 : Shape := ⟨2, ![1, 4096]⟩
abbrev S8192x64x64 : Shape := ⟨3, ![8192, 64, 64]⟩
abbrev S_ : Shape := ⟨0, ![]⟩
abbrev S8192x64 : Shape := ⟨2, ![8192, 64]⟩
abbrev S8192x64x1 : Shape := ⟨3, ![8192, 64, 1]⟩
abbrev S8192x32 : Shape := ⟨2, ![8192, 32]⟩
abbrev S4096x64x64 : Shape := ⟨3, ![4096, 64, 64]⟩
abbrev S4096x64 : Shape := ⟨2, ![4096, 64]⟩
abbrev S4096x64x1 : Shape := ⟨3, ![4096, 64, 1]⟩
abbrev S32x4096 : Shape := ⟨2, ![32, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S64x4096, .f32⟩
  | .hbm, ⟨3, _⟩ => ⟨S4096, .f32⟩
  | .hbm, ⟨4, _⟩ => ⟨S4096x32, .f32⟩
  | .hbm, ⟨5, _⟩ => ⟨S4096x32, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x64x64, .f32⟩
  | .hbm, ⟨10, _⟩ => ⟨S8192x64x64, .f32⟩
  | .hbm, ⟨11, _⟩ => ⟨S_, .f32⟩
  | .hbm, ⟨12, _⟩ => ⟨S8192x64, .f32⟩
  | .hbm, ⟨13, _⟩ => ⟨S8192x64x1, .f32⟩
  | .hbm, ⟨14, _⟩ => ⟨S_, .f32⟩
  | .hbm, ⟨15, _⟩ => ⟨S8192x64x1, .f32⟩
  | .hbm, ⟨16, _⟩ => ⟨S8192x64x1, .f32⟩
  | .hbm, ⟨17, _⟩ => ⟨S_, .f32⟩
  | .hbm, ⟨18, _⟩ => ⟨S8192x64x1, .f32⟩
  | .hbm, ⟨19, _⟩ => ⟨S8192x64x1, .i1⟩
  | .hbm, ⟨20, _⟩ => ⟨S_, .f32⟩
  | .hbm, ⟨21, _⟩ => ⟨S8192x64x1, .f32⟩
  | .hbm, ⟨22, _⟩ => ⟨S8192x64x1, .f32⟩
  | .hbm, ⟨23, _⟩ => ⟨S8192x64x64, .f32⟩
  | .hbm, ⟨24, _⟩ => ⟨S8192x64x64, .f32⟩
  | .hbm, ⟨25, _⟩ => ⟨S8192x64x64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192x64x64, .f32⟩
  | .hbm, ⟨30, _⟩ => ⟨S8192x64x64, .f32⟩
  | .hbm, ⟨31, _⟩ => ⟨S_, .f32⟩
  | .hbm, ⟨32, _⟩ => ⟨S8192x64x64, .f32⟩
  | .hbm, ⟨33, _⟩ => ⟨S8192x64x64, .f32⟩
  | .hbm, ⟨34, _⟩ => ⟨S8192x64x64, .f32⟩
  | .hbm, ⟨35, _⟩ => ⟨S8192x64x64, .f32⟩
  | .hbm, ⟨36, _⟩ => ⟨S8192x4096, .f32⟩
  | .hbm, ⟨37, _⟩ => ⟨S8192x32, .f32⟩
  | .hbm, ⟨38, _⟩ => ⟨S4096x4096, .f32⟩
  | .hbm, ⟨39, _⟩ => ⟨S4096x64x64, .f32⟩
  | .hbm, ⟨40, _⟩ => ⟨S4096x64, .f32⟩
  | .hbm, ⟨41, _⟩ => ⟨S4096x64x1, .f32⟩
  | .hbm, ⟨42, _⟩ => ⟨S4096x64x64, .f32⟩
  | .hbm, ⟨43, _⟩ => ⟨S4096x64x64, .f32⟩
  | .hbm, ⟨44, _⟩ => ⟨S4096x4096, .f32⟩
  | .hbm, ⟨45, _⟩ => ⟨S4096x4096, .f32⟩
  | .hbm, ⟨46, _⟩ => ⟨S8192x4096, .f32⟩
  | .hbm, ⟨47, _⟩ => ⟨S32x4096, .f32⟩
  | .hbm, ⟨48, _⟩ => ⟨S8192x4096, .f32⟩
  | .hbm, ⟨49, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x64x64 : S8192x4096.ShapeCasts S8192x64x64
  reducesTo_S8192x64x64_S8192x64_d2 : S8192x64x64.ReducesTo [2] S8192x64
  h_S_ : 0 < S_.numel
  bcast_S8192x64_S8192x64x1_0_1 : S8192x64.BroadcastsInDim S8192x64x1 (![0, 1] : Fin 2 → Fin S8192x64x1.rank)
  bcast_S_S8192x64x1 : S_.BroadcastsInDim S8192x64x1 (![] : Fin 0 → Fin S8192x64x1.rank)
  bcast_S8192x64x1_S8192x64x64_0_1_2 : S8192x64x1.BroadcastsInDim S8192x64x64 (![0, 1, 2] : Fin 3 → Fin S8192x64x64.rank)
  bcast_S_S8192x64x64 : S_.BroadcastsInDim S8192x64x64 (![] : Fin 0 → Fin S8192x64x64.rank)
  shapeCasts_S8192x64x64_S8192x4096 : S8192x64x64.ShapeCasts S8192x4096
  shapeCasts_S4096x4096_S4096x64x64 : S4096x4096.ShapeCasts S4096x64x64
  transposes_S64x4096_S4096x64_1_0 : S64x4096.Transposes [1, 0] S4096x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  transposes_S4096x4096_S4096x4096_1_0 : S4096x4096.Transposes [1, 0] S4096x4096
  transposes_S4096x32_S32x4096_1_0 : S4096x32.Transposes [1, 0] S32x4096
  dot_S8192x4096_S4096x32_S8192x32_1_0_0_1_n_n_wf : DotDims.WF S8192x4096 S4096x32 S8192x32 [1] [0] [0] [1] [] []
  dot_S8192x4096_S4096x4096_S8192x4096_1_0_0_1_n_n_wf : DotDims.WF S8192x4096 S4096x4096 S8192x4096 [1] [0] [0] [1] [] []
  dot_S8192x32_S32x4096_S8192x4096_1_0_0_1_n_n_wf : DotDims.WF S8192x32 S32x4096 S8192x4096 [1] [0] [0] [1] [] []

variable [Facts₀]

def dot_S8192x4096_S4096x32_S8192x32_1_0_0_1_n_n : DotDims S8192x4096 S4096x32 S8192x32 where
  lhsContracting := [1]
  rhsContracting := [0]
  lhsNonContracting := [0]
  rhsNonContracting := [1]
  lhsBatch := []
  rhsBatch := []
  wf := dot_S8192x4096_S4096x32_S8192x32_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x32_S32x4096_S8192x4096_1_0_0_1_n_n : DotDims S8192x32 S32x4096 S8192x4096 where
  lhsContracting := [1]
  rhsContracting := [0]
  lhsNonContracting := [0]
  rhsNonContracting := [1]
  lhsBatch := []
  rhsBatch := []
  wf := dot_S8192x32_S32x4096_S8192x4096_1_0_0_1_n_n_wf

class Facts : Prop extends Facts₀ where

variable [Facts]
-- ==== Proof.Spec.lean ====
/-
  The mathematics both programs compute, one row at a time, over the extended reals.

  A token row x (4096 entries) is smoothed entry by entry, xs k = x k / s k.  The 4096 entries fall into 64 groups
  of 64 consecutive entries; group g has the scale a g = (max over the group of |xs|) / 7, replaced by 1 when
  that quotient equals 0.  Entry k is quantized to q k = min 7 (max (-8) (round-half-even (xs k / a (k / 64))))
  and dequantized to q k · a (k / 64).  The low-rank activation is la r = Σ k, xs k · D k r.
  A weight row w (4096 integer entries) with its 64 group scales c is dequantized to (w k as a real) · c (k / 64).
  An output entry is Σ k, (dequantized activation k) · (dequantized weight k) + Σ r, la r · U r.
  The float literals stay as their words: the same word is on both sides and is never evaluated.
-/
import Idealize.ShloMosaic.PureOps.Ideal
import Idealize.ShloMosaic.Lib.ValueIdx

noncomputable section

namespace Cert.W4A4

open Idealize.ShloMosaic

/-- Entry `l` of group `g`. -/
def gk (g l : Fin 64) : Fin 4096 := ⟨g.val * 64 + l.val, by have := g.isLt; have := l.isLt; omega⟩

/-- The group an entry lies in. -/
def grp (k : Fin 4096) : Fin 64 := ⟨k.val / 64, by have := k.isLt; omega⟩

/-- An entry is entry `k % 64` of its group. -/
theorem gk_grp (k : Fin 4096) (h : k.val % 64 < 64) : gk (grp k) ⟨k.val % 64, h⟩ = k :=
  Fin.ext (Nat.div_add_mod' k.val 64)

/-- The group of a group's entry is the group. -/
theorem grp_gk (g l : Fin 64) : grp (gk g l) = g :=
  Fin.ext (by show (g.val * 64 + l.val) / 64 = g.val; have := l.isLt; omega)

/-- The smoothed activation. -/
def xs (x s : Fin 4096 → EReal) (k : Fin 4096) : EReal := Ideal.div (x k) (s k)

/-- A group's largest magnitude, folded from the word of -∞. -/
def amax (x s : Fin 4096 → EReal) (g : Fin 64) : EReal :=
  (Finset.univ : Finset (Fin 64)).fold max (Ideal.ofBits .f32 0xFF800000#32)
    (fun l => FloatOps.absf (F := Ideal) (φ := .f32) (xs x s (gk g l)))

/-- A group's scale: its largest magnitude over 7, or 1 where that is 0. -/
def scale (x s : Fin 4096 → EReal) (g : Fin 64) : EReal :=
  Scalar.select (FloatOps.cmpf (F := Ideal) (φ := .f32) .oeq (Ideal.div (amax x s g) (Ideal.ofBits .f32 0x40E00000#32))
      (Ideal.ofBits .f32 0x00000000#32))
    (Ideal.ofBits .f32 0x3F800000#32) (Ideal.div (amax x s g) (Ideal.ofBits .f32 0x40E00000#32))

/-- The activation quantized to [-8, 7] at its group's scale and scaled back. -/
def xdq (x s : Fin 4096 → EReal) (k : Fin 4096) : EReal :=
  min (Ideal.ofBits .f32 0x40E00000#32)
      (max (Ideal.ofBits .f32 0xC1000000#32)
        (Ideal.liftRound Ideal.roundHalfEven (Ideal.div (xs x s k) (scale x s (grp k)))))
    * scale x s (grp k)

/-- The low-rank activation of a row. -/
def la (x s : Fin 4096 → EReal) (D : Fin 4096 → Fin 32 → EReal) (r : Fin 32) : EReal :=
  ∑ k : Fin 4096, xs x s k * D k r

/-- A weight row dequantized with its group scales. -/
def wdq (w : Fin 4096 → BitVec 32) (c : Fin 64 → EReal) (k : Fin 4096) : EReal :=
  FloatOps.sitofp (F := Ideal) .f32 (w k) * c (grp k)

/-- One output entry from a dequantized activation row, a dequantized weight row, a low-rank activation row and a row
    of the up projection. -/
def out (a w : Fin 4096 → EReal) (l u : Fin 32 → EReal) : EReal :=
  ∑ k : Fin 4096, a k * w k + ∑ r : Fin 32, l r * u r

/-! ## Whole arrays

  The intermediate arrays as the three kernels leave them, and the result, each entry by its coordinates. -/

open Idealize.ShloMosaic.ValueIdx

/-- The dequantized activations, from the activations and the smoothing factors laid out as one row. -/
def XDQ (x : (⟨2, ![8192, 4096]⟩ : Shape).Idx → EReal) (s2 : (⟨2, ![1, 4096]⟩ : Shape).Idx → EReal) :
    (⟨2, ![8192, 4096]⟩ : Shape).Idx → EReal :=
  fun i => xdq (fun k => x (ix2 (i 0) k)) (fun k => s2 (ix2 (0 : Fin 1) k)) (i 1)

/-- The low-rank activations. -/
def LA (x : (⟨2, ![8192, 4096]⟩ : Shape).Idx → EReal) (s2 : (⟨2, ![1, 4096]⟩ : Shape).Idx → EReal)
    (D : (⟨2, ![4096, 32]⟩ : Shape).Idx → EReal) : (⟨2, ![8192, 32]⟩ : Shape).Idx → EReal :=
  fun i => la (fun k => x (ix2 (i 0) k)) (fun k => s2 (ix2 (0 : Fin 1) k)) (fun k r => D (ix2 k r)) (i 1)

/-- The dequantized weights, from the integer weights and the transposed group scales. -/
def WDQ (w : (⟨2, ![4096, 4096]⟩ : Shape).Idx → BitVec 32) (cT : (⟨2, ![4096, 64]⟩ : Shape).Idx → EReal) :
    (⟨2, ![4096, 4096]⟩ : Shape).Idx → EReal :=
  fun i => wdq (fun k => w (ix2 (i 0) k)) (fun g => cT (ix2 (i 0) g)) (i 1)

/-- The product of the two dequantized arrays plus the low-rank correction, the up projection transposed. -/
def OUTk (a : (⟨2, ![8192, 4096]⟩ : Shape).Idx → EReal) (w : (⟨2, ![4096, 4096]⟩ : Shape).Idx → EReal)
    (l : (⟨2, ![8192, 32]⟩ : Shape).Idx → EReal) (uT : (⟨2, ![32, 4096]⟩ : Shape).Idx → EReal) :
    (⟨2, ![8192, 4096]⟩ : Shape).Idx → EReal :=
  fun i => out (fun k => a (ix2 (i 0) k)) (fun k => w (ix2 (i 1) k)) (fun r => l (ix2 (i 0) r)) (fun r => uT (ix2 r (i 1)))

/-- The result as one function of the six argument arrays. -/
def OUT (x : (⟨2, ![8192, 4096]⟩ : Shape).Idx → EReal) (w : (⟨2, ![4096, 4096]⟩ : Shape).Idx → BitVec 32)
    (c : (⟨2, ![64, 4096]⟩ : Shape).Idx → EReal) (s : (⟨1, ![4096]⟩ : Shape).Idx → EReal)
    (D U : (⟨2, ![4096, 32]⟩ : Shape).Idx → EReal) : (⟨2, ![8192, 4096]⟩ : Shape).Idx → EReal :=
  fun i => out (xdq (fun k => x (ix2 (i 0) k)) (fun k => s (ix1 k)))
    (wdq (fun k => w (ix2 (i 1) k)) (fun g => c (ix2 g (i 1))))
    (la (fun k => x (ix2 (i 0) k)) (fun k => s (ix1 k)) (fun k r => D (ix2 k r)))
    (fun r => U (ix2 (i 1) r))

/-- The three kernels' composition is the result, when the smoothing row, the transposed scales and the transposed up
    projection are re-laid copies of the arguments. -/
theorem OUTk_eq_OUT (x : (⟨2, ![8192, 4096]⟩ : Shape).Idx → EReal) (w : (⟨2, ![4096, 4096]⟩ : Shape).Idx → BitVec 32)
    (c : (⟨2, ![64, 4096]⟩ : Shape).Idx → EReal) (s : (⟨1, ![4096]⟩ : Shape).Idx → EReal)
    (D U : (⟨2, ![4096, 32]⟩ : Shape).Idx → EReal)
    (s2 : (⟨2, ![1, 4096]⟩ : Shape).Idx → EReal) (cT : (⟨2, ![4096, 64]⟩ : Shape).Idx → EReal)
    (uT : (⟨2, ![32, 4096]⟩ : Shape).Idx → EReal)
    (hs : ∀ k : Fin 4096, s2 (ix2 (0 : Fin 1) k) = s (ix1 k))
    (hc : ∀ (o : Fin 4096) (g : Fin 64), cT (ix2 o g) = c (ix2 g o))
    (hu : ∀ (r : Fin 32) (o : Fin 4096), uT (ix2 r o) = U (ix2 o r)) :
    OUTk (XDQ x s2) (WDQ w cT) (LA x s2 D) uT = OUT x w c s D U := by
  funext i
  have e1 : (fun k => s2 (ix2 (0 : Fin 1) k)) = fun k => s (ix1 k) := funext hs
  have e2 : (fun g => cT (ix2 (i 1) g)) = fun g => c (ix2 g (i 1)) := funext fun g => hc (i 1) g
  have e3 : (fun r => uT (ix2 r (i 1))) = fun r => U (ix2 (i 1) r) := funext fun r => hu r (i 1)
  show out (fun k => xdq (fun k' => x (ix2 (i 0) k')) (fun k' => s2 (ix2 (0 : Fin 1) k')) k)
      (fun k => wdq (fun k' => w (ix2 (i 1) k')) (fun g => cT (ix2 (i 1) g)) k)
      (fun r => la (fun k => x (ix2 (i 0) k)) (fun k => s2 (ix2 (0 : Fin 1) k)) (fun k r => D (ix2 k r)) r)
      (fun r => uT (ix2 r (i 1))) = _
  rw [e1, e2, e3]
  rfl

end Cert.W4A4

end
-- ==== Proof.RefValue.lean ====
/-
  The reference program's result is the specification's `OUT`.

  Each intermediate array of the reference is read at explicit coordinates and identified with the
  specification's function of one row: the smoothed activation `xs`, a group's largest magnitude `amax`
  (the one reduction: a fold of `max` over the 64 entries of the group), the group's `scale`, the
  quantized-and-rescaled activation `xdq`, the low-rank activation `la`, and the dequantized weight `wdq`.
  The reshape [8192, 4096] → [8192, 64, 64] reads (t, g, l) at column g · 64 + l, and the reshape back reads
  column k at (t, k / 64, k % 64); the two compose to the identity on columns.
-/
import proofs.«135502_j20246475833567_2_alg».proof.Proof.Gen.ReferenceIdeal.Read
import proofs.«135502_j20246475833567_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.W4A4

variable (x0 : (⟨S8192x4096, .f32⟩ : BufTy).Contents (Elt Ideal)) (x3 : (⟨S4096, .f32⟩ : BufTy).Contents (Elt Ideal))

/-- Row `t` of the activations. -/
abbrev rowX (t : Fin 8192) : Fin 4096 → EReal := fun k => x0 (ix2 t k)
/-- The smoothing factors as a function of the column. -/
abbrev vecS : Fin 4096 → EReal := fun k => x3 (ix1 k)

/-! ## The smoothed activation -/

/-- The smoothing factors broadcast over the rows, at (t, k): factor k. -/
theorem v1_at (t : Fin 8192) (k : Fin 4096) : val_main_v1 (F := Ideal) x3 (ix2 t k) = x3 (ix1 k) := by
  rw [val_main_v1_apply, val_main_v0_apply]
  exact congrArg x3 (funext fun a => Fin.ext (by match a with | ⟨0, _⟩ => rfl))

/-- The quotient at (t, k) is the smoothed activation of row t at k. -/
theorem v2_at (t : Fin 8192) (k : Fin 4096) :
    val_main_v2 (F := Ideal) x0 x3 (ix2 t k) = xs (rowX x0 t) (vecS x3) k := by
  rw [val_main_v2_apply, v1_at]
  rfl

/-- Entry l of group g is a column. -/
theorem idx_v3 (t : Fin 8192) (g l : Fin 64) : idx_main_v3 (ix3 t g l) = ix2 t (gk g l) :=
  funext fun a => Fin.ext (by
    have := t.isLt; have := g.isLt; have := l.isLt
    match a with
    | ⟨0, _⟩ => show ((t.val * 64 + g.val) * 64 + l.val) / 4096 = t.val; omega
    | ⟨1, _⟩ => show ((t.val * 64 + g.val) * 64 + l.val) % 4096 = g.val * 64 + l.val; omega)

/-- The grouped view at (t, g, l) is the smoothed activation at entry l of group g. -/
theorem v3_at (t : Fin 8192) (g l : Fin 64) :
    val_main_v3 (F := Ideal) x0 x3 (ix3 t g l) = xs (rowX x0 t) (vecS x3) (gk g l) := by
  rw [val_main_v3_apply, idx_v3, v2_at]

/-- Its magnitude. -/
theorem v4_at (t : Fin 8192) (g l : Fin 64) :
    val_main_v4 (F := Ideal) x0 x3 (ix3 t g l)
      = FloatOps.absf (F := Ideal) (φ := .f32) (xs (rowX x0 t) (vecS x3) (gk g l)) := by
  rw [val_main_v4_apply, v3_at]
  rfl

/-! ## The largest magnitude of a group -/

/-- The reduction over the last axis, as a fact about the shapes. -/
theorem reduces_d2 : S8192x64x64.Reduces [2] S8192x64 := by decide

/-- The index over (t, g) with l inserted on the reduced axis is (t, g, l). -/
theorem lift_d2 (t : Fin 8192) (g l : Fin 64) : reduces_d2.lift (ix2 t g) l = ix3 t g l :=
  funext fun a => Fin.ext (by
    match a with
    | ⟨0, _⟩ => rfl
    | ⟨1, _⟩ => rfl
    | ⟨2, _⟩ => rfl)

/-- A max-reduce over the last axis of a [8192, 64, 64] array of extended reals, at (t, g): the fold of `max` over
    the 64 entries (t, g, l), from the initial value's element. -/
theorem reduce_max_at (y : S8192x64x64.Idx → EReal) (init : S_.Idx → EReal) (t : Fin 8192) (g : Fin 64) :
    Host.reduce (FloatOps.maximumf (F := Ideal) (φ := .f32)) y init reducesTo_S8192x64x64_S8192x64_d2 h_S_ (ix2 t g)
      = (Finset.univ : Finset (Fin 64)).fold max (init (Shape.Idx.first h_S_)) (fun l => y (ix3 t g l)) := by
  have h1 := Host.reduce_eq_fold_single (α := EReal) (FloatOps.maximumf (F := Ideal) (φ := .f32)) y init
    reducesTo_S8192x64x64_S8192x64_d2 reduces_d2 h_S_ (ix2 t g)
  refine h1.trans ?_
  exact Finset.fold_congr (fun l _ => congrArg y (lift_d2 t g l))

/-- The max-reduce at (t, g) is the fold of `max` over the group's 64 magnitudes from the word of -∞. -/
theorem v5_at (t : Fin 8192) (g : Fin 64) :
    val_main_v5 (F := Ideal) x0 x3 (ix2 t g) = amax (rowX x0 t) (vecS x3) g := by
  unfold val_main_v5
  refine (reduce_max_at (val_main_v4 (F := Ideal) x0 x3) (val_main_cst (F := Ideal)) t g).trans ?_
  unfold amax
  exact Finset.fold_congr (fun l _ => v4_at x0 x3 t g l)

/-! ## The scale of a group -/

theorem idx_v6 (t : Fin 8192) (g : Fin 64) (u : Fin 1) : idx_main_v6 (ix3 t g u) = ix2 t g :=
  funext fun a => Fin.ext (by match a with | ⟨0, _⟩ => rfl | ⟨1, _⟩ => rfl)

/-- The largest magnitude over 7. -/
theorem v8_at (t : Fin 8192) (g : Fin 64) (u : Fin 1) :
    val_main_v8 (F := Ideal) x0 x3 (ix3 t g u)
      = Ideal.div (amax (rowX x0 t) (vecS x3) g) (Ideal.ofBits .f32 0x40E00000#32) := by
  rw [val_main_v8_apply, val_main_v6_apply, idx_v6, v5_at, val_main_v7_apply]
  rfl

/-- ... replaced by 1 where it is 0: the group's scale. -/
theorem v12_at (t : Fin 8192) (g : Fin 64) (u : Fin 1) :
    val_main_v12 (F := Ideal) x0 x3 (ix3 t g u) = scale (rowX x0 t) (vecS x3) g := by
  rw [val_main_v12_apply, val_main_v10_apply, v8_at, val_main_v9_apply, val_main_v11_apply]
  rfl

theorem idx_v13 (t : Fin 8192) (g l : Fin 64) : idx_main_v13 (ix3 t g l) = ix3 t g (0 : Fin 1) :=
  funext fun a => Fin.ext (by match a with | ⟨0, _⟩ => rfl | ⟨1, _⟩ => rfl | ⟨2, _⟩ => rfl)

theorem idx_v17 (t : Fin 8192) (g l : Fin 64) : idx_main_v17 (ix3 t g l) = ix3 t g (0 : Fin 1) :=
  funext fun a => Fin.ext (by match a with | ⟨0, _⟩ => rfl | ⟨1, _⟩ => rfl | ⟨2, _⟩ => rfl)

/-- The scale broadcast along its group. -/
theorem v13_at (t : Fin 8192) (g l : Fin 64) :
    val_main_v13 (F := Ideal) x0 x3 (ix3 t g l) = scale (rowX x0 t) (vecS x3) g := by
  rw [val_main_v13_apply, idx_v13, v12_at]

theorem v17_at (t : Fin 8192) (g l : Fin 64) :
    val_main_v17 (F := Ideal) x0 x3 (ix3 t g l) = scale (rowX x0 t) (vecS x3) g := by
  rw [val_main_v17_apply, idx_v17, v12_at]

/-! ## Quantize and scale back -/

/-- At (t, g, l): the smoothed entry over its group's scale, rounded half to even, clipped to [-8, 7], times the scale. -/
theorem v18_at (t : Fin 8192) (g l : Fin 64) :
    val_main_v18 (F := Ideal) x0 x3 (ix3 t g l)
      = min (Ideal.ofBits .f32 0x40E00000#32)
          (max (Ideal.ofBits .f32 0xC1000000#32)
            (Ideal.liftRound Ideal.roundHalfEven
              (Ideal.div (xs (rowX x0 t) (vecS x3) (gk g l)) (scale (rowX x0 t) (vecS x3) g))))
        * scale (rowX x0 t) (vecS x3) g := by
  rw [val_main_v18_apply, val_main_v16_apply, val_main_call2_v2_apply, val_main_v15_apply, val_main_v14_apply,
    v3_at, v13_at, v17_at, val_main_call2_v4_apply, val_main_call2_v1_apply]
  rfl

/-- Column k lies at (k / 64, k % 64) of the grouped view. -/
theorem idx_v19 (t : Fin 8192) (k : Fin 4096) :
    idx_main_v19 (ix2 t k) = ix3 t (grp k) (⟨k.val % 64, Nat.mod_lt _ (by decide)⟩ : Fin 64) :=
  funext fun a => Fin.ext (by
    have := t.isLt; have := k.isLt
    match a with
    | ⟨0, _⟩ => show (t.val * 4096 + k.val) / 4096 = t.val; omega
    | ⟨1, _⟩ => show (t.val * 4096 + k.val) / 64 % 64 = k.val / 64; omega
    | ⟨2, _⟩ => show (t.val * 4096 + k.val) % 64 = k.val % 64; omega)

/-- Entry k % 64 of group k / 64 is column k. -/
theorem gk_grp (k : Fin 4096) : gk (grp k) (⟨k.val % 64, Nat.mod_lt _ (by decide)⟩ : Fin 64) = k :=
  Fin.ext (by show k.val / 64 * 64 + k.val % 64 = k.val; omega)

/-- The dequantized activation at (t, k). -/
theorem v19_at (t : Fin 8192) (k : Fin 4096) :
    val_main_v19 (F := Ideal) x0 x3 (ix2 t k) = xdq (rowX x0 t) (vecS x3) k := by
  rw [val_main_v19_apply, idx_v19, v18_at, gk_grp]
  rfl

/-! ## The low-rank activation -/

/-- The first product at (t, r): the smoothed row against column r of the down projection. -/
theorem v20_at (x4 : (⟨S4096x32, .f32⟩ : BufTy).Contents (Elt Ideal)) (t : Fin 8192) (r : Fin 32) :
    val_main_v20 (F := Ideal) x0 x3 x4 (ix2 t r)
      = la (rowX x0 t) (vecS x3) (fun k r => x4 (ix2 k r)) r := by
  rw [val_main_v20_apply]
  unfold la
  refine Finset.sum_congr rfl fun k _ => ?_
  rw [show lidx_main_v20 (ix2 t r) k = ix2 t k from
      funext fun a => Fin.ext (by match a with | ⟨0, _⟩ => rfl | ⟨1, _⟩ => rfl),
    show ridx_main_v20 (ix2 t r) k = ix2 k r from
      funext fun a => Fin.ext (by match a with | ⟨0, _⟩ => rfl | ⟨1, _⟩ => rfl),
    v2_at]

/-! ## The dequantized weight -/

section Weight

variable (x1 : (⟨S4096x4096, .i32⟩ : BufTy).Contents (Elt Ideal)) (x2 : (⟨S64x4096, .f32⟩ : BufTy).Contents (Elt Ideal))

/-- Row `o` of the integer weights. -/
abbrev rowW (o : Fin 4096) : Fin 4096 → BitVec 32 := fun k => x1 (ix2 o k)
/-- Column `o` of the group scales. -/
abbrev colC (o : Fin 4096) : Fin 64 → EReal := fun g => x2 (ix2 g o)

theorem idx_v22 (o : Fin 4096) (g l : Fin 64) : idx_main_v22 (ix3 o g l) = ix2 o (gk g l) :=
  funext fun a => Fin.ext (by
    have := o.isLt; have := g.isLt; have := l.isLt
    match a with
    | ⟨0, _⟩ => show ((o.val * 64 + g.val) * 64 + l.val) / 4096 = o.val; omega
    | ⟨1, _⟩ => show ((o.val * 64 + g.val) * 64 + l.val) % 4096 = g.val * 64 + l.val; omega)

/-- The converted weight in the grouped view. -/
theorem v22_at (o : Fin 4096) (g l : Fin 64) :
    val_main_v22 (F := Ideal) x1 (ix3 o g l) = FloatOps.sitofp (F := Ideal) .f32 (x1 (ix2 o (gk g l))) := by
  rw [val_main_v22_apply, idx_v22, val_main_v21_apply]

/-- The transposed group scales broadcast along each group: at (o, g, l) scale (g, o). -/
theorem v25_at (o : Fin 4096) (g l : Fin 64) : val_main_v25 (F := Ideal) x2 (ix3 o g l) = x2 (ix2 g o) := by
  rw [val_main_v25_apply, val_main_v24_apply, val_main_v23_apply]
  exact congrArg x2 (funext fun a => Fin.ext (by match a with | ⟨0, _⟩ => rfl | ⟨1, _⟩ => rfl))

theorem v26_at (o : Fin 4096) (g l : Fin 64) :
    val_main_v26 (F := Ideal) x1 x2 (ix3 o g l)
      = FloatOps.sitofp (F := Ideal) .f32 (x1 (ix2 o (gk g l))) * x2 (ix2 g o) := by
  rw [val_main_v26_apply, v22_at, v25_at]
  rfl

theorem idx_v27 (o k : Fin 4096) :
    idx_main_v27 (ix2 o k) = ix3 o (grp k) (⟨k.val % 64, Nat.mod_lt _ (by decide)⟩ : Fin 64) :=
  funext fun a => Fin.ext (by
    have := o.isLt; have := k.isLt
    match a with
    | ⟨0, _⟩ => show (o.val * 4096 + k.val) / 4096 = o.val; omega
    | ⟨1, _⟩ => show (o.val * 4096 + k.val) / 64 % 64 = k.val / 64; omega
    | ⟨2, _⟩ => show (o.val * 4096 + k.val) % 64 = k.val % 64; omega)

/-- The dequantized weight at (o, k). -/
theorem v27_at (o k : Fin 4096) :
    val_main_v27 (F := Ideal) x1 x2 (ix2 o k) = wdq (rowW x1 o) (colC x2 o) k := by
  rw [val_main_v27_apply, idx_v27, v26_at, gk_grp]
  rfl

/-- Its transpose at (k, o). -/
theorem v28_at (k o : Fin 4096) :
    val_main_v28 (F := Ideal) x1 x2 (ix2 k o) = wdq (rowW x1 o) (colC x2 o) k := by
  rw [val_main_v28_apply,
    show idx_main_v28 (ix2 k o) = ix2 o k from
      funext fun a => Fin.ext (by match a with | ⟨0, _⟩ => rfl | ⟨1, _⟩ => rfl),
    v27_at]

/-! ## The two products and their sum -/

/-- The main product at (t, o). -/
theorem v29_at (t : Fin 8192) (o : Fin 4096) :
    val_main_v29 (F := Ideal) x0 x1 x2 x3 (ix2 t o)
      = ∑ k : Fin 4096, xdq (rowX x0 t) (vecS x3) k * wdq (rowW x1 o) (colC x2 o) k := by
  rw [val_main_v29_apply]
  refine Finset.sum_congr rfl fun k _ => ?_
  rw [show lidx_main_v29 (ix2 t o) k = ix2 t k from
      funext fun a => Fin.ext (by match a with | ⟨0, _⟩ => rfl | ⟨1, _⟩ => rfl),
    show ridx_main_v29 (ix2 t o) k = ix2 k o from
      funext fun a => Fin.ext (by match a with | ⟨0, _⟩ => rfl | ⟨1, _⟩ => rfl),
    v19_at, v28_at]

end Weight

/-- The low-rank correction at (t, o). -/
theorem v31_at (x4 x5 : (⟨S4096x32, .f32⟩ : BufTy).Contents (Elt Ideal)) (t : Fin 8192) (o : Fin 4096) :
    val_main_v31 (F := Ideal) x0 x3 x4 x5 (ix2 t o)
      = ∑ r : Fin 32, la (rowX x0 t) (vecS x3) (fun k r => x4 (ix2 k r)) r * x5 (ix2 o r) := by
  rw [val_main_v31_apply]
  refine Finset.sum_congr rfl fun r _ => ?_
  rw [show lidx_main_v31 (ix2 t o) r = ix2 t r from
      funext fun a => Fin.ext (by match a with | ⟨0, _⟩ => rfl | ⟨1, _⟩ => rfl),
    v20_at, val_main_v30_apply,
    show idx_main_v30 (ridx_main_v31 (ix2 t o) r) = ix2 o r from
      funext fun a => Fin.ext (by match a with | ⟨0, _⟩ => rfl | ⟨1, _⟩ => rfl)]

/-- The reference program's result is the specification. -/
theorem ref_eq (x0 : (⟨S8192x4096, .f32⟩ : BufTy).Contents (Elt Ideal))
    (x1 : (⟨S4096x4096, .i32⟩ : BufTy).Contents (Elt Ideal)) (x2 : (⟨S64x4096, .f32⟩ : BufTy).Contents (Elt Ideal))
    (x3 : (⟨S4096, .f32⟩ : BufTy).Contents (Elt Ideal)) (x4 x5 : (⟨S4096x32, .f32⟩ : BufTy).Contents (Elt Ideal)) :
    Cert.ReferenceIdeal.Read.val_main_v32 (F := Ideal) x0 x1 x2 x3 x4 x5 = Cert.W4A4.OUT x0 x1 x2 x3 x4 x5 := by
  funext i
  obtain ⟨t, o, rfl⟩ : ∃ (t : Fin 8192) (o : Fin 4096), i = ix2 t o := ⟨i 0, i 1, eq_ix2 i⟩
  rw [val_main_v32_apply, v29_at, v31_at]
  rfl

end Cert.ReferenceIdeal.RefValue

end
-- ==== Proof.KernelRun.lean ====
import proofs.«135502_j20246475833567_2_alg».proof.Proof.Gen.KernelIdeal.Frame
import Idealize.ShloMosaic.Lib.StableHlo.Run

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main, with the result buffer read at the end

The program is three host stretches (a reshape, two transposes), each followed by a pipelined region. The buffer
contents at the boundaries between these six segments are the fold `Gen.W0 … Gen.W6` of the imported frame module.
`run_main` is the frame's run with one more fact kept from the final state: the result buffer `main_v5` holds
`Gen.W6 … main_v5`. The remaining statements read the fold at the buffers the regions consume: a buffer no
operation of a stretch writes keeps its contents through that stretch, a buffer that is no array of a region keeps
its contents through that region, an array of a region ends at what the region's write-backs leave, and the one
buffer a stretch writes holds that stretch's operation applied to its operand. -/

/-! ## One host stretch at one buffer -/

/-- The first stretch (the reshape into `main_v0`) leaves every other buffer as it was. -/
theorem after0_of_ne (V : Valuation τ sig (Elt F)) (b : Ref sig .tc) (h : b ≠ main_v0) :
    StableHlo.after Gen.hostOps0 V (Proc.devRef .tc b) = V (Proc.devRef .tc b) :=
  StableHlo.after_of_forall_not_mem (b := Proc.devRef .tc b) _ _ (List.forall_iff_forall_mem.mp (by
    simp only [Gen.hostOps0, List.Forall, StableHlo.reshape_writes, Finset.mem_singleton]
    exact StableHlo.devRef_ne_of_ne h))

/-- The second stretch (the transpose into `main_v2`) leaves every other buffer as it was. -/
theorem after1_of_ne (V : Valuation τ sig (Elt F)) (b : Ref sig .tc) (h : b ≠ main_v2) :
    StableHlo.after Gen.hostOps1 V (Proc.devRef .tc b) = V (Proc.devRef .tc b) :=
  StableHlo.after_of_forall_not_mem (b := Proc.devRef .tc b) _ _ (List.forall_iff_forall_mem.mp (by
    simp only [Gen.hostOps1, List.Forall, StableHlo.unary_writes, Finset.mem_singleton]
    exact StableHlo.devRef_ne_of_ne h))

/-- The third stretch (the transpose into `main_v4`) leaves every other buffer as it was. -/
theorem after2_of_ne (V : Valuation τ sig (Elt F)) (b : Ref sig .tc) (h : b ≠ main_v4) :
    StableHlo.after Gen.hostOps2 V (Proc.devRef .tc b) = V (Proc.devRef .tc b) :=
  StableHlo.after_of_forall_not_mem (b := Proc.devRef .tc b) _ _ (List.forall_iff_forall_mem.mp (by
    simp only [Gen.hostOps2, List.Forall, StableHlo.unary_writes, Finset.mem_singleton]
    exact StableHlo.devRef_ne_of_ne h))

/-- After the first stretch `main_v0` holds `main_arg3`'s 4096 entries as one row. -/
theorem after0_v0 (V : Valuation τ sig (Elt F)) :
    StableHlo.after Gen.hostOps0 V (Proc.devRef .tc main_v0)
      = shapeCast S1x4096 (V (Proc.devRef .tc main_arg3)) Gen.shapeCasts_S4096_S1x4096 := by
  after_results
  rfl

/-- After the second stretch `main_v2` holds the transpose of `main_arg2`. -/
theorem after1_v2 (V : Valuation τ sig (Elt F)) :
    StableHlo.after Gen.hostOps1 V (Proc.devRef .tc main_v2)
      = transpose S4096x64 [1, 0] (V (Proc.devRef .tc main_arg2)) Gen.transposes_S64x4096_S4096x64_1_0 := by
  after_results

/-- After the third stretch `main_v4` holds the transpose of `main_arg5`. -/
theorem after2_v4 (V : Valuation τ sig (Elt F)) :
    StableHlo.after Gen.hostOps2 V (Proc.devRef .tc main_v4)
      = transpose S32x4096 [1, 0] (V (Proc.devRef .tc main_arg5)) Gen.transposes_S4096x32_S32x4096_1_0 := by
  after_results

/-! ## The result buffer at the end: the last region's output array -/

theorem v5_eq (c : Dev nD) :
    Gen.W6 m ρ c (Proc.devRef .tc main_v5) = (Gen.dat2 (Gen.V5 m ρ) c).arrAt 4 cfg2.N :=
  Gen.W6_arr m ρ c 4

/-! ## What the last region reads -/

/-- The first region's first output, untouched by the two later stretches and by the second region. -/
theorem V5_v1_0 (c : Dev nD) :
    Gen.V5 m ρ c main_v1_0 = (Gen.dat0 (Gen.V1 m ρ) c).arrAt 3 cfg0.N :=
  calc Gen.W5 m ρ c (Proc.devRef .tc main_v1_0)
    _ = Gen.W4 m ρ c (Proc.devRef .tc main_v1_0) := after2_of_ne _ main_v1_0 (by decide)
    _ = Gen.W3 m ρ c (Proc.devRef .tc main_v1_0) := Gen.W4_of_ne m ρ c main_v1_0 (by decide)
    _ = Gen.W2 m ρ c (Proc.devRef .tc main_v1_0) := after1_of_ne _ main_v1_0 (by decide)
    _ = (Gen.dat0 (Gen.V1 m ρ) c).arrAt 3 cfg0.N := Gen.W2_arr m ρ c 3

/-- The first region's second output, likewise. -/
theorem V5_v1_1 (c : Dev nD) :
    Gen.V5 m ρ c main_v1_1 = (Gen.dat0 (Gen.V1 m ρ) c).arrAt 4 cfg0.N :=
  calc Gen.W5 m ρ c (Proc.devRef .tc main_v1_1)
    _ = Gen.W4 m ρ c (Proc.devRef .tc main_v1_1) := after2_of_ne _ main_v1_1 (by decide)
    _ = Gen.W3 m ρ c (Proc.devRef .tc main_v1_1) := Gen.W4_of_ne m ρ c main_v1_1 (by decide)
    _ = Gen.W2 m ρ c (Proc.devRef .tc main_v1_1) := after1_of_ne _ main_v1_1 (by decide)
    _ = (Gen.dat0 (Gen.V1 m ρ) c).arrAt 4 cfg0.N := Gen.W2_arr m ρ c 4

/-- The second region's output, untouched by the last stretch. -/
theorem V5_v3 (c : Dev nD) :
    Gen.V5 m ρ c main_v3 = (Gen.dat1 (Gen.V3 m ρ) c).arrAt 2 cfg1.N :=
  calc Gen.W5 m ρ c (Proc.devRef .tc main_v3)
    _ = Gen.W4 m ρ c (Proc.devRef .tc main_v3) := after2_of_ne _ main_v3 (by decide)
    _ = (Gen.dat1 (Gen.V3 m ρ) c).arrAt 2 cfg1.N := Gen.W4_arr m ρ c 2

/-- `main_arg5` is as launched when the last stretch transposes it: nothing before writes it. -/
theorem W4_arg5 (c : Dev nD) :
    Gen.W4 m ρ c (Proc.devRef .tc main_arg5) = m ((c.tc : Thread nD τ).loc main_arg5) :=
  calc Gen.W4 m ρ c (Proc.devRef .tc main_arg5)
    _ = Gen.W3 m ρ c (Proc.devRef .tc main_arg5) := Gen.W4_of_ne m ρ c main_arg5 (by decide)
    _ = Gen.W2 m ρ c (Proc.devRef .tc main_arg5) := after1_of_ne _ main_arg5 (by decide)
    _ = Gen.W1 m ρ c (Proc.devRef .tc main_arg5) := Gen.W2_of_ne m ρ c main_arg5 (by decide)
    _ = Gen.W0 m ρ c (Proc.devRef .tc main_arg5) := after0_of_ne _ main_arg5 (by decide)
    _ = m ((c.tc : Thread nD τ).loc main_arg5) := rfl

/-- The last stretch's transpose of `main_arg5` as launched. -/
theorem V5_v4 (c : Dev nD) :
    Gen.V5 m ρ c main_v4
      = transpose S32x4096 [1, 0] (m ((c.tc : Thread nD τ).loc main_arg5)) Gen.transposes_S4096x32_S32x4096_1_0 :=
  calc Gen.W5 m ρ c (Proc.devRef .tc main_v4)
    _ = transpose S32x4096 [1, 0] (Gen.W4 m ρ c (Proc.devRef .tc main_arg5)) Gen.transposes_S4096x32_S32x4096_1_0 :=
        after2_v4 (Gen.W4 m ρ c)
    _ = transpose S32x4096 [1, 0] (m ((c.tc : Thread nD τ).loc main_arg5)) Gen.transposes_S4096x32_S32x4096_1_0 := by
        rw [W4_arg5 m ρ c]

/-! ## What the second region reads -/

/-- `main_arg1` as launched: no stretch and no region before writes it. -/
theorem V3_arg1 (c : Dev nD) :
    Gen.V3 m ρ c main_arg1 = m ((c.tc : Thread nD τ).loc main_arg1) :=
  calc Gen.W3 m ρ c (Proc.devRef .tc main_arg1)
    _ = Gen.W2 m ρ c (Proc.devRef .tc main_arg1) := after1_of_ne _ main_arg1 (by decide)
    _ = Gen.W1 m ρ c (Proc.devRef .tc main_arg1) := Gen.W2_of_ne m ρ c main_arg1 (by decide)
    _ = Gen.W0 m ρ c (Proc.devRef .tc main_arg1) := after0_of_ne _ main_arg1 (by decide)
    _ = m ((c.tc : Thread nD τ).loc main_arg1) := rfl

/-- `main_arg2` is as launched when the second stretch transposes it. -/
theorem W2_arg2 (c : Dev nD) :
    Gen.W2 m ρ c (Proc.devRef .tc main_arg2) = m ((c.tc : Thread nD τ).loc main_arg2) :=
  calc Gen.W2 m ρ c (Proc.devRef .tc main_arg2)
    _ = Gen.W1 m ρ c (Proc.devRef .tc main_arg2) := Gen.W2_of_ne m ρ c main_arg2 (by decide)
    _ = Gen.W0 m ρ c (Proc.devRef .tc main_arg2) := after0_of_ne _ main_arg2 (by decide)
    _ = m ((c.tc : Thread nD τ).loc main_arg2) := rfl

/-- The second stretch's transpose of `main_arg2` as launched. -/
theorem V3_v2 (c : Dev nD) :
    Gen.V3 m ρ c main_v2
      = transpose S4096x64 [1, 0] (m ((c.tc : Thread nD τ).loc main_arg2)) Gen.transposes_S64x4096_S4096x64_1_0 :=
  calc Gen.W3 m ρ c (Proc.devRef .tc main_v2)
    _ = transpose S4096x64 [1, 0] (Gen.W2 m ρ c (Proc.devRef .tc main_arg2)) Gen.transposes_S64x4096_S4096x64_1_0 :=
        after1_v2 (Gen.W2 m ρ c)
    _ = transpose S4096x64 [1, 0] (m ((c.tc : Thread nD τ).loc main_arg2)) Gen.transposes_S64x4096_S4096x64_1_0 := by
        rw [W2_arg2 m ρ c]

/-! ## What the first region reads -/

theorem V1_arg0 (c : Dev nD) :
    Gen.V1 m ρ c main_arg0 = m ((c.tc : Thread nD τ).loc main_arg0) :=
  calc Gen.W1 m ρ c (Proc.devRef .tc main_arg0)
    _ = Gen.W0 m ρ c (Proc.devRef .tc main_arg0) := after0_of_ne _ main_arg0 (by decide)
    _ = m ((c.tc : Thread nD τ).loc main_arg0) := rfl

/-- The first stretch's reshape of `main_arg3` as launched. -/
theorem V1_v0 (c : Dev nD) :
    Gen.V1 m ρ c main_v0
      = shapeCast S1x4096 (m ((c.tc : Thread nD τ).loc main_arg3)) Gen.shapeCasts_S4096_S1x4096 :=
  calc Gen.W1 m ρ c (Proc.devRef .tc main_v0)
    _ = shapeCast S1x4096 (Gen.W0 m ρ c (Proc.devRef .tc main_arg3)) Gen.shapeCasts_S4096_S1x4096 :=
        after0_v0 (Gen.W0 m ρ c)
    _ = shapeCast S1x4096 (m ((c.tc : Thread nD τ).loc main_arg3)) Gen.shapeCasts_S4096_S1x4096 := rfl

theorem V1_arg4 (c : Dev nD) :
    Gen.V1 m ρ c main_arg4 = m ((c.tc : Thread nD τ).loc main_arg4) :=
  calc Gen.W1 m ρ c (Proc.devRef .tc main_arg4)
    _ = Gen.W0 m ρ c (Proc.devRef .tc main_arg4) := after0_of_ne _ main_arg4 (by decide)
    _ = m ((c.tc : Thread nD τ).loc main_arg4) := rfl

/-! ## The run -/

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and in every final state the result buffer `main_v5` holds the last boundary's
    contents `Gen.W6 … main_v5` and the six argument arrays are as launched: the launch over the six segments, the
    last thread state read against the final state, the result buffer kept beside the arguments. -/
theorem run_main : θ_run defs (onTc (τ := τ) (main (F := F))) ⟨m, fun _ => 0, ρ⟩ (fun r => ∀ c : Dev nD,
      r.2.mem ((c.tc : Thread nD τ).loc main_v5) = Gen.W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W6 m ρ c) s')
      isplitl [Hh] <;> iassumption)
    (hQ := fun s h c =>
      ⟨h c _ (Gen.mem_uc main_v5 (by decide)),
       (h c _ (Gen.mem_uc main_arg0 (by decide))).trans (Gen.W6_main_arg0 m ρ c),
       (h c _ (Gen.mem_uc main_arg1 (by decide))).trans (Gen.W6_main_arg1 m ρ c),
       (h c _ (Gen.mem_uc main_arg2 (by decide))).trans (Gen.W6_main_arg2 m ρ c),
       (h c _ (Gen.mem_uc main_arg3 (by decide))).trans (Gen.W6_main_arg3 m ρ c),
       (h c _ (Gen.mem_uc main_arg4 (by decide))).trans (Gen.W6_main_arg4 m ρ c),
       (h c _ (Gen.mem_uc main_arg5 (by decide))).trans (Gen.W6_main_arg5 m ρ c)⟩)

/-- info: 'Cert.KernelIdeal.RunV.run_main' depends on axioms: [propext, Classical.choice, Quot.sound] -/
#guard_msgs in #print axioms run_main

end Cert.KernelIdeal.RunV

end
-- ==== Proof.LibFlatten.lean ====
/-
  Two row-major reshapes read at an index given by coordinates.
  • MERGING the two leading axes, [a, b, c] → [n, c] with n = a · b: entry (j, k) of the result is entry
    (j / b, j % b, k) of the operand.
  • SPLITTING the last axis, [n, d] → [n, b, c] with d = b · c: entry (i, p, q) of the result is entry
    (i, p · c + q) of the operand.
  Both are the library's `shapeCast_apply` with the row-major positions written out.
-/
import Idealize.ShloMosaic.Lib.Pipeline.Value
import Idealize.ShloMosaic.Lib.ValueIdx

namespace Idealize.ShloMosaic.ValueIdx

open Idealize.ShloMosaic

variable {α : Type}

/-- `[a, b, c]` viewed as `[n, c]`, `n = a · b`: at `(j, k)` the operand at `(j / b, j % b, k)`. -/
theorem shapeCast_abc_nc_apply {a b c n : ℕ} (hn : n = a * b) (hb : 0 < b) (x : (⟨3, ![a, b, c]⟩ : Shape).Idx → α)
    (h : (⟨3, ![a, b, c]⟩ : Shape).ShapeCasts ⟨2, ![n, c]⟩) (j : Fin n) (k : Fin c) :
    shapeCast ⟨2, ![n, c]⟩ x h (ix2 j k)
      = x (ix3 (⟨j.val / b, Nat.div_lt_of_lt_mul (lt_of_lt_of_eq j.isLt (hn.trans (Nat.mul_comm a b)))⟩ : Fin a)
          (⟨j.val % b, Nat.mod_lt _ hb⟩ : Fin b) k) :=
  shapeCast_apply x h _ _ (by
    rw [Shape.rowMajor_val_three, Shape.rowMajor_val_two]
    show (j.val / b * b + j.val % b) * c + k.val = j.val * c + k.val
    rw [Nat.div_add_mod'])

/-- `[n, d]` viewed as `[n, b, c]`, `d = b · c`: at `(i, p, q)` the operand at `(i, p · c + q)`. -/
theorem shapeCast_nd_nbc_apply {n b c d : ℕ} (hd : d = b * c) (x : (⟨2, ![n, d]⟩ : Shape).Idx → α)
    (h : (⟨2, ![n, d]⟩ : Shape).ShapeCasts ⟨3, ![n, b, c]⟩) (i : Fin n) (p : Fin b) (q : Fin c) :
    shapeCast ⟨3, ![n, b, c]⟩ x h (ix3 i p q)
      = x (ix2 i (⟨p.val * c + q.val, by
            rw [hd]
            calc p.val * c + q.val < p.val * c + c := Nat.add_lt_add_left q.isLt _
              _ = (p.val + 1) * c := by rw [Nat.add_mul, Nat.one_mul]
              _ ≤ b * c := Nat.mul_le_mul_right c p.isLt⟩ : Fin d)) :=
  shapeCast_apply x h _ _ (by
    rw [Shape.rowMajor_val_three, Shape.rowMajor_val_two]
    show i.val * d + (p.val * c + q.val) = (i.val * b + p.val) * c + q.val
    rw [hd, Nat.add_mul, Nat.mul_assoc, Nat.add_assoc])

end Idealize.ShloMosaic.ValueIdx
-- ==== Proof.LibReshape.lean ====
/-
  Row-major reshapes and one broadcast read at an index given by coordinates.
  • A trailing unit axis added, [a, b] → [a, b, 1]: entry (p, q, u) of the result is entry (p, q) of the operand.
  • That unit axis broadcast, [a, b, 1] → [a, b, c]: entry (p, q, r) of the result is entry (p, q, 0) of the operand.
  • MERGING the two trailing axes, [a, b, c] → [a, d] with d = b · c: entry (o, i) of the result is entry
    (o, i / c, i % c) of the operand.
  • SPLITTING the leading axis, [n, c] → [a, b, c] with n = a · b: entry (p, q, k) of the result is entry
    (p · b + q, k) of the operand.
  The reshapes are the library's `shapeCast_apply` with the row-major positions written out, the broadcast its
  `broadcastTo_apply` axis by axis.
-/
import Idealize.ShloMosaic.Lib.Pipeline.Value
import Idealize.ShloMosaic.Lib.ValueIdx

namespace Idealize.ShloMosaic.ValueIdx

open Idealize.ShloMosaic

variable {α : Type}

/-- `[a, b]` viewed as `[a, b, 1]`: at `(p, q, u)` the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, b, 1]` broadcast to `[a, b, c]`: at `(p, q, r)` the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, b, c]` viewed as `[a, d]`, `d = b · c`: at `(o, i)` the operand at `(o, i / c, i % c)`. -/
theorem shapeCast_abc_ad_apply {a b c d : ℕ} (hd : d = b * c) (hc : 0 < c) (x : (⟨3, ![a, b, c]⟩ : Shape).Idx → α)
    (h : (⟨3, ![a, b, c]⟩ : Shape).ShapeCasts ⟨2, ![a, d]⟩) (o : Fin a) (i : Fin d) :
    shapeCast ⟨2, ![a, d]⟩ x h (ix2 o i)
      = x (ix3 o (⟨i.val / c, Nat.div_lt_of_lt_mul (lt_of_lt_of_eq i.isLt (hd.trans (Nat.mul_comm b c)))⟩ : Fin b)
          (⟨i.val % c, Nat.mod_lt _ hc⟩ : Fin c)) :=
  shapeCast_apply x h _ _ (by
    rw [Shape.rowMajor_val_three, Shape.rowMajor_val_two]
    show (o.val * b + i.val / c) * c + i.val % c = o.val * d + i.val
    rw [Nat.add_mul, Nat.add_assoc, Nat.div_add_mod' i.val c, Nat.mul_assoc, ← hd])

/-- `[n, c]` viewed as `[a, b, c]`, `n = a · b`: at `(p, q, k)` the operand at `(p · b + q, k)`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (k : Fin c) :
    shapeCast ⟨3, ![a, b, c]⟩ x h (ix3 p q k)
      = x (ix2 (⟨p.val * b + q.val, by
            rw [hn]
            calc p.val * b + q.val < p.val * b + b := Nat.add_lt_add_left q.isLt _
              _ = (p.val + 1) * b := by rw [Nat.add_mul, Nat.one_mul]
              _ ≤ a * b := Nat.mul_le_mul_right b p.isLt⟩ : Fin n) k) :=
  shapeCast_apply x h _ _ (by
    rw [Shape.rowMajor_val_three, Shape.rowMajor_val_two]
    rfl)

end Idealize.ShloMosaic.ValueIdx
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibLastMax.lean ====
/-
  A maximum along the last axis of a rank-3 array, read at an entry.

  An index of a rank-3 shape is determined by its three coordinates' values.  A lane reduction
  `multi_reduction <maximumf>` of an [a, b, c] array along its last axis, read at (p, q) over the extended reals, is the
  fold of `max`, from the accumulator word's value, over l of the entries (p, q, l).
-/
import Idealize.ShloMosaic.PureOps.Ideal.Laws
import Idealize.ShloMosaic.Lib.ValueIdx

namespace Idealize.ShloMosaic.ValueIdx

open Idealize.ShloMosaic

/-- An index of a rank-3 shape is the one with the same three coordinates. -/
theorem idx3_ext' {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (by match d with | ⟨0, _⟩ => exact h0 | ⟨1, _⟩ => exact h1 | ⟨2, _⟩ => exact h2)

/-- A maximum along the last axis of an [a, b, c] array, from the word `acc`, read at `(p, q)`: the fold of `max` over
    `l` of `src (p, q, l)`. The shape fact, the format fact and the accumulator's neutrality are whatever proofs the
    printed operation carries. -/
theorem multiReduction_max_last_apply {a b c : ℕ} (src : FVec Ideal ⟨3, ![a, b, c]⟩ .f32) (acc : BitVec 32)
    (hr : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc hr hφ hacc (ix2 p q)
      = (Finset.univ : Finset (Fin c)).fold max (Ideal.ofBits .f32 acc) (fun l => src (ix3 p q l)) :=
  (Ideal.multiReduction_maximumf_single src acc hr hφ hacc (ix2 p q)).trans
    (Finset.fold_congr fun l _ => congrArg src (idx3_ext' _ p q l rfl rfl rfl))

end Idealize.ShloMosaic.ValueIdx
-- ==== Proof.Pay0.lean ====
/-
  The activation-preprocessing body at an entry.  The body divides its [512, 4096] block of activations by the row of
  smoothing factors, views the quotient as [512, 64, 64] (row, group, entry in group), takes each group's largest
  magnitude, forms the group's scale, quantizes and dequantizes, and views the result back as [512, 4096]; beside it,
  it multiplies the smoothed block with the down projection.  Entry (r, k) of the first result is the row's
  dequantized activation k, entry (r, q) of the second the row's low-rank activation q.
-/
import proofs.«135502_j20246475833567_2_alg».proof.Proof.Gen.KernelIdeal.Skeleton
import proofs.«135502_j20246475833567_2_alg».proof.Proof.Spec
import proofs.«135502_j20246475833567_2_alg».proof.Proof.LibFlatten
import proofs.«135502_j20246475833567_2_alg».proof.Proof.LibReshape
import Idealize.ShloMosaic.Lib.ValueLayout
import proofs.«135502_j20246475833567_2_alg».proof.Proof.LibDot
import proofs.«135502_j20246475833567_2_alg».proof.Proof.LibLastMax

noncomputable section

namespace Cert.KernelIdeal.PayV

open Idealize.ShloMosaic Idealize.ShloMosaic.ValueIdx Cert.KernelIdeal Cert.KernelIdeal.Gen

/-- Rounding and magnitude act entry by entry. -/
theorem roundeven_apply {s : Shape} {φ : FTy} (a : FVec Ideal s φ) (i : s.Idx) : roundeven a i = FloatOps.roundeven (a i) := rfl
theorem absf_apply {s : Shape} {φ : FTy} (a : FVec Ideal s φ) (i : s.Idx) : absf a i = FloatOps.absf (a i) := rfl

/-- Entry (r, k) of the smoothed block. -/
theorem pay01_apply (v0 : Vec Ideal S512x4096 .f32) (v1 : Vec Ideal S1x4096 .f32) (r : Fin 512) (k : Fin 4096) :
    k0_pay1 (F := Ideal) v0 v1 (ix2 r k) = Cert.W4A4.xs (fun k => v0 (ix2 r k)) (fun k => v1 (ix2 (0 : Fin 1) k)) k := by
  unfold k0_pay1
  rw [divf_apply, broadcastTo_1b_ab_apply, shapeCast_self]
  rfl

-- the reduction's accumulator fact is stated through the format's neutral element, which the printed proof spells as a
-- plain equation of words: matching the two needs definitions unfolded in a proof's type
set_option backward.isDefEq.respectTransparency.types false in
/-- Entry (r, k) of the dequantized block. -/
theorem pay02_apply (v0 : Vec Ideal S512x4096 .f32) (v1 : Vec Ideal S1x4096 .f32) (r : Fin 512) (k : Fin 4096) :
    k0_pay2 (F := Ideal) v0 v1 (ix2 r k) = Cert.W4A4.xdq (fun k => v0 (ix2 r k)) (fun k => v1 (ix2 (0 : Fin 1) k)) k := by
  unfold k0_pay2
  rw [truncf_apply, shapeCast_abc_ad_apply (by decide) (by decide)]
  simp only [mulf_apply, minimumf_apply, maximumf_apply, broadcast_apply, roundeven_apply, divf_apply]
  rw [broadcastTo_ab1_abc_apply, shapeCast_nd_nbc_apply (by decide)]
  simp only [select_apply, cmpf_apply, divf_apply, broadcast_apply]
  rw [shapeCast_ab_ab1_apply, multiReduction_max_last_apply]
  simp only [absf_apply, shapeCast_nd_nbc_apply (n := 512) (b := 64) (c := 64) (d := 4096) (by decide), pay01_apply]
  show min _ (max _ (FloatOps.roundeven (F := Ideal) (φ := .f32) (Ideal.div
      (Cert.W4A4.xs (fun k => v0 (ix2 r k)) (fun k => v1 (ix2 (0 : Fin 1) k))
        (Cert.W4A4.gk (Cert.W4A4.grp k) ⟨k.val % 64, Nat.mod_lt _ (by decide)⟩))
      (Cert.W4A4.scale (fun k => v0 (ix2 r k)) (fun k => v1 (ix2 (0 : Fin 1) k)) (Cert.W4A4.grp k)))))
    * Cert.W4A4.scale (fun k => v0 (ix2 r k)) (fun k => v1 (ix2 (0 : Fin 1) k)) (Cert.W4A4.grp k) = _
  rw [Cert.W4A4.gk_grp]
  rfl

/-- The down projection's product is a plain rows-by-columns one. -/
theorem plain_down : Cert.LibDot.Plain dot_S512x4096_S4096x32_S512x32_1_0_0_1_n_n where
  hrank := rfl
  hs := rfl
  hl0 := fun j k => by
    unfold DotDims.lhsIdx
    rw [dif_neg (show ¬(0 : Fin S512x4096.rank) ∈ dot_S512x4096_S4096x32_S512x32_1_0_0_1_n_n.lhsBatch by decide), dif_pos (show (0 : Fin S512x4096.rank) ∈ dot_S512x4096_S4096x32_S512x32_1_0_0_1_n_n.lhsNonContracting by decide)]
    rfl
  hl1 := fun j k => dot_S512x4096_S4096x32_S512x32_1_0_0_1_n_n.lhsIdx_val_of_single rfl j k
  hr0 := fun j k => dot_S512x4096_S4096x32_S512x32_1_0_0_1_n_n.rhsIdx_val_of_single rfl j k
  hr1 := fun j k => by
    unfold DotDims.rhsIdx
    rw [dif_neg (show ¬(1 : Fin S4096x32.rank) ∈ dot_S512x4096_S4096x32_S512x32_1_0_0_1_n_n.rhsBatch by decide), dif_pos (show (1 : Fin S4096x32.rank) ∈ dot_S512x4096_S4096x32_S512x32_1_0_0_1_n_n.rhsNonContracting by decide)]
    rfl

/-- Entry (r, q) of the low-rank block. -/
theorem pay03_apply (v0 : Vec Ideal S512x4096 .f32) (v1 : Vec Ideal S1x4096 .f32) (v28 : Vec Ideal S4096x32 .f32)
    (r : Fin 512) (q : Fin 32) :
    k0_pay3 (F := Ideal) v0 v1 v28 (ix2 r q)
      = Cert.W4A4.la (fun k => v0 (ix2 r k)) (fun k => v1 (ix2 (0 : Fin 1) k)) (fun k q => v28 (ix2 k q)) q := by
  unfold k0_pay3
  rw [Cert.LibDot.matmul_ix2 plain_down]
  simp only [truncf_apply, pay01_apply]
  rfl

end Cert.KernelIdeal.PayV

end
-- ==== Proof.Blocks0.lean ====
/-
  The two arrays after the first kernel.  Its grid has 16 points; point t reads rows 512·t … 512·t+511 of the
  activations, the one row of smoothing factors and the whole down projection, and writes the same rows of the
  dequantized activations and of the low-rank activations.  A written-back block is therefore that block of ONE function
  of the arrays, the blocks cover the array, and each array ends holding that function.
-/
import proofs.«135502_j20246475833567_2_alg».proof.Proof.Gen.KernelIdeal.Frame
import proofs.«135502_j20246475833567_2_alg».proof.Proof.Pay0
import Idealize.ShloMosaic.Lib.Pipeline.Value

set_option maxRecDepth 16384

noncomputable section

namespace Cert.KernelIdeal.BlocksV

open Idealize.ShloMosaic Idealize.ShloMosaic.TcCoe Idealize.ShloMosaic.ValueIdx Idealize.SL.Sem
open Cert.KernelIdeal Cert.KernelIdeal.Gen Cert.KernelIdeal.PayV
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the activations' and both results' block row is the point, the smoothing
    row's and the down projection's block row is 0, and every block column is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A block whose rows are rows `P p` of the activations, beside the whole smoothing row, quantizes and dequantizes to
    those rows of the dequantized array. -/
theorem blk0_3 (x0 : Vec Ideal S512x4096 .f32) (x1 : Vec Ideal S1x4096 .f32)
    (X : (⟨2, ![8192, 4096]⟩ : Shape).Idx → EReal) (S2 : (⟨2, ![1, 4096]⟩ : Shape).Idx → EReal)
    (P : Fin 512 → Fin 8192)
    (h0 : ∀ (p : Fin 512) (k : Fin 4096), x0 (ix2 p k) = X (ix2 (P p) k))
    (h1 : ∀ k : Fin 4096, x1 (ix2 (0 : Fin 1) k) = S2 (ix2 (0 : Fin 1) k)) (p : Fin 512) (q : Fin 4096) :
    k0_pay2 (F := Ideal) x0 x1 (ix2 p q) = Cert.W4A4.XDQ X S2 (ix2 (P p) q) := by
  rw [pay02_apply]
  show Cert.W4A4.xdq _ _ q = Cert.W4A4.xdq (fun k => X (ix2 (P p) k)) (fun k => S2 (ix2 (0 : Fin 1) k)) q
  rw [funext (h0 p), funext h1]

/-- The same block, beside the whole smoothing row and the whole down projection, has those rows of the low-rank
    array as its product. -/
theorem blk0_4 (x0 : Vec Ideal S512x4096 .f32) (x1 : Vec Ideal S1x4096 .f32) (x2 : Vec Ideal S4096x32 .f32)
    (X : (⟨2, ![8192, 4096]⟩ : Shape).Idx → EReal) (S2 : (⟨2, ![1, 4096]⟩ : Shape).Idx → EReal)
    (D : (⟨2, ![4096, 32]⟩ : Shape).Idx → EReal) (P : Fin 512 → Fin 8192)
    (h0 : ∀ (p : Fin 512) (k : Fin 4096), x0 (ix2 p k) = X (ix2 (P p) k))
    (h1 : ∀ k : Fin 4096, x1 (ix2 (0 : Fin 1) k) = S2 (ix2 (0 : Fin 1) k))
    (h2 : ∀ (k : Fin 4096) (q : Fin 32), x2 (ix2 k q) = D (ix2 k q)) (p : Fin 512) (q : Fin 32) :
    k0_pay3 (F := Ideal) x0 x1 x2 (ix2 p q) = Cert.W4A4.LA X S2 D (ix2 (P p) q) := by
  rw [pay03_apply]
  show Cert.W4A4.la _ _ _ q
    = Cert.W4A4.la (fun k => X (ix2 (P p) k)) (fun k => S2 (ix2 (0 : Fin 1) k)) (fun k q => D (ix2 k q)) q
  rw [funext (h0 p), funext h1, show (fun k q => x2 (ix2 k q)) = fun k q => D (ix2 k q) from
    funext fun k => funext (h2 k)]

/-- What point `t` writes back to the first result is block `t` of the dequantized array of the arrays the region finds. -/
theorem flushed0_3_eq (c : Dev nD) (t : Fin cfg0.N) :
    (dat0 V c).flushed 3 t
      = ((cfg0.win 3).blk t).view.read (Elt Ideal) (Cert.W4A4.XDQ (V c main_arg0) (V c main_v0)) := by
  show (cfg0.win 3).cut (grid0.coords t) ((dat0 V c).after 3 t) = _
  rw [after0_3]
  unfold out0_3
  rw [View.canon_unit_zero hz0]
  simp only [View.ld_unit_zero (S := S512x4096) hz0, View.ld_unit_zero (S := S1x4096) hz0]
  obtain ⟨e0, e1, e2, e3, e4, e5, e6, e7, e8, e9⟩ := idx_facts0 t
  have ht : t.val < 16 := lt_of_lt_of_eq t.isLt N_0
  funext j
  obtain ⟨p, q, rfl⟩ : ∃ (p : Fin 512) (q : Fin 4096), j = ix2 p q := ⟨j 0, j 1, eq_ix2 j⟩
  refine (blk0_3 _ _ (V c main_arg0) (V c main_v0)
    (fun p => ⟨t.val * 512 + p.val, by have := p.isLt; omega⟩) ?_ ?_ p q).trans ?_
  · intro p k
    show V c main_arg0 (((cfg0.win 0).blk t).view.emb (ix2 p k)) = V c main_arg0 (ix2 _ k)
    refine congrArg _ (funext fun a => Fin.ext ?_)
    match a with
    | ⟨0, _⟩ => show win0_0.index t (0 : Fin 2) * 512 + 1 * p.val = t.val * 512 + p.val; omega
    | ⟨1, _⟩ => show win0_0.index t (1 : Fin 2) * 4096 + 1 * k.val = k.val; omega
  · intro k
    show V c main_v0 (((cfg0.win 1).blk t).view.emb (ix2 (0 : Fin 1) k)) = V c main_v0 (ix2 (0 : Fin 1) k)
    refine congrArg _ (funext fun a => Fin.ext ?_)
    match a with
    | ⟨0, _⟩ => show win0_1.index t (0 : Fin 2) * 1 + 1 * 0 = 0; omega
    | ⟨1, _⟩ => show win0_1.index t (1 : Fin 2) * 4096 + 1 * k.val = k.val; omega
  · show Cert.W4A4.XDQ (V c main_arg0) (V c main_v0) _
      = Cert.W4A4.XDQ (V c main_arg0) (V c main_v0) (((cfg0.win 3).blk t).view.emb (ix2 p q))
    refine congrArg _ (funext fun a => Fin.ext ?_)
    match a with
    | ⟨0, _⟩ => show t.val * 512 + p.val = win0_3.index t (0 : Fin 2) * 512 + 1 * p.val; omega
    | ⟨1, _⟩ => show q.val = win0_3.index t (1 : Fin 2) * 4096 + 1 * q.val; omega

/-- What point `t` writes back to the second result is block `t` of the low-rank array of the arrays the region finds. -/
theorem flushed0_4_eq (c : Dev nD) (t : Fin cfg0.N) :
    (dat0 V c).flushed 4 t
      = ((cfg0.win 4).blk t).view.read (Elt Ideal) (Cert.W4A4.LA (V c main_arg0) (V c main_v0) (V c main_arg4)) := by
  show (cfg0.win 4).cut (grid0.coords t) ((dat0 V c).after 4 t) = _
  rw [after0_4]
  unfold out0_4
  rw [View.canon_unit_zero hz0]
  simp only [View.ld_unit_zero (S := S512x4096) hz0, View.ld_unit_zero (S := S1x4096) hz0,
    View.ld_unit_zero (S := S4096x32) hz0]
  obtain ⟨e0, e1, e2, e3, e4, e5, e6, e7, e8, e9⟩ := idx_facts0 t
  have ht : t.val < 16 := lt_of_lt_of_eq t.isLt N_0
  funext j
  obtain ⟨p, q, rfl⟩ : ∃ (p : Fin 512) (q : Fin 32), j = ix2 p q := ⟨j 0, j 1, eq_ix2 j⟩
  refine (blk0_4 _ _ _ (V c main_arg0) (V c main_v0) (V c main_arg4)
    (fun p => ⟨t.val * 512 + p.val, by have := p.isLt; omega⟩) ?_ ?_ ?_ p q).trans ?_
  · intro p k
    show V c main_arg0 (((cfg0.win 0).blk t).view.emb (ix2 p k)) = V c main_arg0 (ix2 _ k)
    refine congrArg _ (funext fun a => Fin.ext ?_)
    match a with
    | ⟨0, _⟩ => show win0_0.index t (0 : Fin 2) * 512 + 1 * p.val = t.val * 512 + p.val; omega
    | ⟨1, _⟩ => show win0_0.index t (1 : Fin 2) * 4096 + 1 * k.val = k.val; omega
  · intro k
    show V c main_v0 (((cfg0.win 1).blk t).view.emb (ix2 (0 : Fin 1) k)) = V c main_v0 (ix2 (0 : Fin 1) k)
    refine congrArg _ (funext fun a => Fin.ext ?_)
    match a with
    | ⟨0, _⟩ => show win0_1.index t (0 : Fin 2) * 1 + 1 * 0 = 0; omega
    | ⟨1, _⟩ => show win0_1.index t (1 : Fin 2) * 4096 + 1 * k.val = k.val; omega
  · intro k r
    show V c main_arg4 (((cfg0.win 2).blk t).view.emb (ix2 k r)) = V c main_arg4 (ix2 k r)
    refine congrArg _ (funext fun a => Fin.ext ?_)
    match a with
    | ⟨0, _⟩ => show win0_2.index t (0 : Fin 2) * 4096 + 1 * k.val = k.val; omega
    | ⟨1, _⟩ => show win0_2.index t (1 : Fin 2) * 32 + 1 * r.val = r.val; omega
  · show Cert.W4A4.LA (V c main_arg0) (V c main_v0) (V c main_arg4) _
      = Cert.W4A4.LA (V c main_arg0) (V c main_v0) (V c main_arg4) (((cfg0.win 4).blk t).view.emb (ix2 p q))
    refine congrArg _ (funext fun a => Fin.ext ?_)
    match a with
    | ⟨0, _⟩ => show t.val * 512 + p.val = win0_4.index t (0 : Fin 2) * 512 + 1 * p.val; omega
    | ⟨1, _⟩ => show q.val = win0_4.index t (1 : Fin 2) * 32 + 1 * q.val; omega

/-- An index of the first result is in point `t`'s block iff each coordinate is in the block's range on its axis. -/
theorem mem_blk0_3 (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v1_0).slice (win0_3.rect t)).set ↔ _
  rw [View.set_slice_whole, Rect.mem_set_unit]
  exact Iff.rfl

/-- The same for the second result. -/
theorem mem_blk0_4 (t : Fin cfg0.N) (i : S8192x32.Idx) :
    i ∈ ((cfg0.win 4).blk t).view.set ↔ ∀ a : Fin 2, win0_4.index t a * S512x32.size a ≤ (i a).val ∧ (i a).val < win0_4.index t a * S512x32.size a + S512x32.size a := by
  show i ∈ ((View.whole main_v1_1).slice (win0_4.rect t)).set ↔ _
  rw [View.set_slice_whole, Rect.mem_set_unit]
  exact Iff.rfl

/-- Every index of the first result lies in the block of the point its row names. -/
theorem cover0_3 (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  let t : Fin cfg0.N := ⟨(i 0).val / 512, by rw [show cfg0.N = 16 from N_0]; omega⟩
  obtain ⟨e0, e1, e2, e3, e4, e5, e6, e7, e8, e9⟩ := idx_facts0 t
  have ht : t.val = (i 0).val / 512 := rfl
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- Every index of the second result lies in the block of the point its row names. -/
theorem cover0_4 (i : S8192x32.Idx) : ∃ t : Fin cfg0.N, (cfg0.win 4).flush t = true ∧ i ∈ ((cfg0.win 4).blk t).view.set := by
  have hi0 : (i 0).val < 8192 := (i 0).isLt
  have hi1 : (i 1).val < 32 := (i 1).isLt
  let t : Fin cfg0.N := ⟨(i 0).val / 512, by rw [show cfg0.N = 16 from N_0]; omega⟩
  obtain ⟨e0, e1, e2, e3, e4, e5, e6, e7, e8, e9⟩ := idx_facts0 t
  have ht : t.val = (i 0).val / 512 := rfl
  refine ⟨t, flush0_4 t, ?_⟩
  rw [mem_blk0_4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 32 ≤ (i 1).val ∧ (i 1).val < win0_4.index t (1 : Fin 2) * 32 + 32; omega

/-- The dequantized-activation array after the region. -/
theorem final0_3 (c : Dev nD) : (dat0 V c).arrAt 3 cfg0.N = Cert.W4A4.XDQ (V c main_arg0) (V c main_v0) :=
  (dat0 V c).arrAt_eq_of_cover 3 _ (fun t _ => flushed0_3_eq V c t) cover0_3

/-- The low-rank-activation array after the region. -/
theorem final0_4 (c : Dev nD) :
    (dat0 V c).arrAt 4 cfg0.N = Cert.W4A4.LA (V c main_arg0) (V c main_v0) (V c main_arg4) :=
  (dat0 V c).arrAt_eq_of_cover 4 _ (fun t _ => flushed0_4_eq V c t) cover0_4

end Cert.KernelIdeal.BlocksV

end
-- ==== Proof.Pay1.lean ====
/-
  The weight-dequantization body at an entry.  The body views its [512, 4096] block of integer weights as
  [512, 64, 64] (row, group, entry in group), multiplies by the row's group scale broadcast along the group, and
  views the product back as [512, 4096]: entry (o, k) is the weight (o, k) as a real times scale (o, k / 64).
-/
import proofs.«135502_j20246475833567_2_alg».proof.Proof.Gen.KernelIdeal.Skeleton
import proofs.«135502_j20246475833567_2_alg».proof.Proof.Spec
import proofs.«135502_j20246475833567_2_alg».proof.Proof.LibFlatten
import proofs.«135502_j20246475833567_2_alg».proof.Proof.LibReshape

noncomputable section

namespace Cert.KernelIdeal.PayV

open Idealize.ShloMosaic Idealize.ShloMosaic.ValueIdx Cert.KernelIdeal Cert.KernelIdeal.Gen

/-- Entry (o, k) of the dequantized block is the row's dequantized weight k. -/
theorem pay1_apply (v0 : Vec Ideal S512x4096 .i32) (v1 : Vec Ideal S512x64 .f32) (o : Fin 512) (k : Fin 4096) :
    k1_pay1 (F := Ideal) v0 v1 (ix2 o k) = Cert.W4A4.wdq (fun k => v0 (ix2 o k)) (fun g => v1 (ix2 o g)) k := by
  unfold k1_pay1
  rw [truncf_apply, shapeCast_abc_ad_apply (by decide) (by decide), mulf_apply, shapeCast_nd_nbc_apply (by decide),
    broadcastTo_ab1_abc_apply, shapeCast_ab_ab1_apply, shapeCast_self]
  show (sitofp (F := Ideal) .f32 v0 : FVec Ideal S512x4096 .f32)
        (ix2 o (Cert.W4A4.gk (Cert.W4A4.grp k) ⟨k.val % 64, Nat.mod_lt _ (by decide)⟩))
      * v1 (ix2 o (Cert.W4A4.grp k)) = _
  rw [Cert.W4A4.gk_grp]
  rfl

end Cert.KernelIdeal.PayV

end
-- ==== Proof.Blocks1.lean ====
/-
  The dequantized-weight array after the second kernel.  Its grid has 8 points; point t reads rows 512·t … 512·t+511
  of the integer weights and of the transposed scales and writes the same rows of the result.  A written-back block is
  therefore that block of ONE function of the two arrays, the blocks cover the array, and the array ends holding it.
-/
import proofs.«135502_j20246475833567_2_alg».proof.Proof.Gen.KernelIdeal.Frame
import proofs.«135502_j20246475833567_2_alg».proof.Proof.Pay1
import Idealize.ShloMosaic.Lib.Pipeline.Value

set_option maxRecDepth 16384

noncomputable section

namespace Cert.KernelIdeal.BlocksV

open Idealize.ShloMosaic Idealize.ShloMosaic.TcCoe Idealize.ShloMosaic.ValueIdx Idealize.SL.Sem
open Cert.KernelIdeal Cert.KernelIdeal.Gen Cert.KernelIdeal.PayV
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: every window's block row is the point, its block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- A block whose rows are rows `n·512 + p` of the two arrays dequantizes to those rows of the dequantized array. -/
theorem blk1_2 (x0 : Vec Ideal S512x4096 .i32) (x1 : Vec Ideal S512x64 .f32)
    (Wq : (⟨2, ![4096, 4096]⟩ : Shape).Idx → BitVec 32) (cT : (⟨2, ![4096, 64]⟩ : Shape).Idx → EReal)
    (P : Fin 512 → Fin 4096)
    (h0 : ∀ (p : Fin 512) (k : Fin 4096), x0 (ix2 p k) = Wq (ix2 (P p) k))
    (h1 : ∀ (p : Fin 512) (g : Fin 64), x1 (ix2 p g) = cT (ix2 (P p) g)) (p : Fin 512) (q : Fin 4096) :
    k1_pay1 (F := Ideal) x0 x1 (ix2 p q) = Cert.W4A4.WDQ Wq cT (ix2 (P p) q) := by
  rw [pay1_apply]
  show Cert.W4A4.wdq _ _ q = Cert.W4A4.wdq (fun k => Wq (ix2 (P p) k)) (fun g => cT (ix2 (P p) g)) q
  rw [funext (h0 p), funext (h1 p)]

/-- What point `t` writes back is block `t` of the dequantized array of the arrays the region finds. -/
theorem flushed1_2_eq (c : Dev nD) (t : Fin cfg1.N) :
    (dat1 V c).flushed 2 t = ((cfg1.win 2).blk t).view.read (Elt Ideal) (Cert.W4A4.WDQ (V c main_arg1) (V c main_v2)) := by
  show (cfg1.win 2).cut (grid1.coords t) ((dat1 V c).after 2 t) = _
  rw [after1_2]
  unfold out1_2
  rw [View.canon_unit_zero hz1]
  simp only [View.ld_unit_zero (S := S512x4096) hz1, View.ld_unit_zero (S := S512x64) hz1]
  obtain ⟨e0, e1, e2, e3, e4, e5⟩ := idx_facts1 t
  have ht : t.val < 8 := lt_of_lt_of_eq t.isLt N_1
  funext j
  obtain ⟨p, q, rfl⟩ : ∃ (p : Fin 512) (q : Fin 4096), j = ix2 p q := ⟨j 0, j 1, eq_ix2 j⟩
  refine (blk1_2 _ _ (V c main_arg1) (V c main_v2) (fun p => ⟨t.val * 512 + p.val, by have := p.isLt; omega⟩) ?_ ?_ p q).trans ?_
  · intro p k
    show V c main_arg1 (((cfg1.win 0).blk t).view.emb (ix2 p k)) = V c main_arg1 (ix2 _ k)
    refine congrArg _ (funext fun a => Fin.ext ?_)
    match a with
    | ⟨0, _⟩ => show win1_0.index t (0 : Fin 2) * 512 + 1 * p.val = t.val * 512 + p.val; omega
    | ⟨1, _⟩ => show win1_0.index t (1 : Fin 2) * 4096 + 1 * k.val = k.val; omega
  · intro p g
    show V c main_v2 (((cfg1.win 1).blk t).view.emb (ix2 p g)) = V c main_v2 (ix2 _ g)
    refine congrArg _ (funext fun a => Fin.ext ?_)
    match a with
    | ⟨0, _⟩ => show win1_1.index t (0 : Fin 2) * 512 + 1 * p.val = t.val * 512 + p.val; omega
    | ⟨1, _⟩ => show win1_1.index t (1 : Fin 2) * 64 + 1 * g.val = g.val; omega
  · show Cert.W4A4.WDQ (V c main_arg1) (V c main_v2) _ = Cert.W4A4.WDQ (V c main_arg1) (V c main_v2) (((cfg1.win 2).blk t).view.emb (ix2 p q))
    refine congrArg _ (funext fun a => Fin.ext ?_)
    match a with
    | ⟨0, _⟩ => show t.val * 512 + p.val = win1_2.index t (0 : Fin 2) * 512 + 1 * p.val; omega
    | ⟨1, _⟩ => show q.val = win1_2.index t (1 : Fin 2) * 4096 + 1 * q.val; omega

/-- An index of the array is in point `t`'s block iff each coordinate is in the block's range on its axis. -/
theorem mem_blk1_2 (t : Fin cfg1.N) (i : S4096x4096.Idx) :
    i ∈ ((cfg1.win 2).blk t).view.set ↔ ∀ a : Fin 2, win1_2.index t a * S512x4096.size a ≤ (i a).val ∧ (i a).val < win1_2.index t a * S512x4096.size a + S512x4096.size a := by
  show i ∈ ((View.whole main_v3).slice (win1_2.rect t)).set ↔ _
  rw [View.set_slice_whole, Rect.mem_set_unit]
  exact Iff.rfl

/-- Every index lies in the block of the point its row names. -/
theorem cover1_2 (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  let t : Fin cfg1.N := ⟨(i 0).val / 512, by rw [show cfg1.N = 8 from N_1]; omega⟩
  obtain ⟨e0, e1, e2, e3, e4, e5⟩ := idx_facts1 t
  have ht : t.val = (i 0).val / 512 := rfl
  refine ⟨t, flush1_2 t, ?_⟩
  rw [mem_blk1_2]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 4096 ≤ (i 1).val ∧ (i 1).val < win1_2.index t (1 : Fin 2) * 4096 + 4096; omega

/-- The dequantized-weight array after the region. -/
theorem final1_2 (c : Dev nD) : (dat1 V c).arrAt 2 cfg1.N = Cert.W4A4.WDQ (V c main_arg1) (V c main_v2) :=
  (dat1 V c).arrAt_eq_of_cover 2 _ (fun t _ => flushed1_2_eq V c t) cover1_2

end Cert.KernelIdeal.BlocksV

end
-- ==== Proof.Pay2.lean ====
/-
  The product body at an entry.  The body multiplies its [1024, 4096] block of dequantized activations with the
  TRANSPOSE of its [1024, 4096] block of dequantized weights, multiplies its [1024, 32] block of low-rank activations
  with its [32, 1024] block of the transposed up projection, and adds: entry (r, c) is
  Σ k, a (r, k) · w (c, k) + Σ q, l (r, q) · u (q, c).
-/
import proofs.«135502_j20246475833567_2_alg».proof.Proof.Gen.KernelIdeal.Skeleton
import proofs.«135502_j20246475833567_2_alg».proof.Proof.Spec
import proofs.«135502_j20246475833567_2_alg».proof.Proof.LibDot
import Idealize.ShloMosaic.Lib.ValueLayout
import Idealize.ShloMosaic.Lib.Pipeline.Value

noncomputable section

namespace Cert.KernelIdeal.PayV

open Idealize.ShloMosaic Idealize.ShloMosaic.ValueIdx Cert.KernelIdeal Cert.KernelIdeal.Gen

/-- The two products' dimension numbers are plain rows-by-columns ones. -/
theorem plain_main : Cert.LibDot.Plain dot_S1024x4096_S4096x1024_S1024x1024_1_0_0_1_n_n where
  hrank := rfl
  hs := rfl
  hl0 := fun j k => by
    unfold DotDims.lhsIdx
    rw [dif_neg (show ¬(0 : Fin S1024x4096.rank) ∈ dot_S1024x4096_S4096x1024_S1024x1024_1_0_0_1_n_n.lhsBatch by decide), dif_pos (show (0 : Fin S1024x4096.rank) ∈ dot_S1024x4096_S4096x1024_S1024x1024_1_0_0_1_n_n.lhsNonContracting by decide)]
    rfl
  hl1 := fun j k => dot_S1024x4096_S4096x1024_S1024x1024_1_0_0_1_n_n.lhsIdx_val_of_single rfl j k
  hr0 := fun j k => dot_S1024x4096_S4096x1024_S1024x1024_1_0_0_1_n_n.rhsIdx_val_of_single rfl j k
  hr1 := fun j k => by
    unfold DotDims.rhsIdx
    rw [dif_neg (show ¬(1 : Fin S4096x1024.rank) ∈ dot_S1024x4096_S4096x1024_S1024x1024_1_0_0_1_n_n.rhsBatch by decide), dif_pos (show (1 : Fin S4096x1024.rank) ∈ dot_S1024x4096_S4096x1024_S1024x1024_1_0_0_1_n_n.rhsNonContracting by decide)]
    rfl

theorem plain_lora : Cert.LibDot.Plain dot_S1024x32_S32x1024_S1024x1024_1_0_0_1_n_n where
  hrank := rfl
  hs := rfl
  hl0 := fun j k => by
    unfold DotDims.lhsIdx
    rw [dif_neg (show ¬(0 : Fin S1024x32.rank) ∈ dot_S1024x32_S32x1024_S1024x1024_1_0_0_1_n_n.lhsBatch by decide), dif_pos (show (0 : Fin S1024x32.rank) ∈ dot_S1024x32_S32x1024_S1024x1024_1_0_0_1_n_n.lhsNonContracting by decide)]
    rfl
  hl1 := fun j k => dot_S1024x32_S32x1024_S1024x1024_1_0_0_1_n_n.lhsIdx_val_of_single rfl j k
  hr0 := fun j k => dot_S1024x32_S32x1024_S1024x1024_1_0_0_1_n_n.rhsIdx_val_of_single rfl j k
  hr1 := fun j k => by
    unfold DotDims.rhsIdx
    rw [dif_neg (show ¬(1 : Fin S32x1024.rank) ∈ dot_S1024x32_S32x1024_S1024x1024_1_0_0_1_n_n.rhsBatch by decide), dif_pos (show (1 : Fin S32x1024.rank) ∈ dot_S1024x32_S32x1024_S1024x1024_1_0_0_1_n_n.rhsNonContracting by decide)]
    rfl

/-- Entry (r, c) of the product block. -/
theorem pay2_apply (v0 v2 : Vec Ideal S1024x4096 .bf16) (v6 : Vec Ideal S1024x32 .f32) (v9 : Vec Ideal S32x1024 .f32)
    (r c : Fin 1024) :
    k2_pay1 (F := Ideal) v0 v2 v6 v9 (ix2 r c)
      = Cert.W4A4.out (fun k => v0 (ix2 r k)) (fun k => v2 (ix2 c k)) (fun q => v6 (ix2 r q)) (fun q => v9 (ix2 q c)) := by
  unfold k2_pay1
  rw [addf_apply, Cert.LibDot.matmul_ix2 plain_main, Cert.LibDot.matmul_ix2 plain_lora]
  simp only [shapeCast_self, truncf_apply]
  refine congrArg₂ (· + ·) (Finset.sum_congr rfl fun k _ => ?_) rfl
  exact congrArg (v0 (ix2 r k) * ·) (transpose_ix2_apply v2 _ k c)

end Cert.KernelIdeal.PayV

end
-- ==== Proof.Blocks2.lean ====
/-
  The result array after the third kernel.  Its grid has 4·8 = 32 points, the second coordinate fastest: point t has
  coordinates (t / 8, t % 8).  Point t reads rows (t % 8)·1024 … (t % 8)·1024+1023 of the dequantized activations and of
  the low-rank activations, rows (t / 8)·1024 … (t / 8)·1024+1023 of the dequantized weights and the same columns of the
  transposed up projection, and writes the block of the result at those rows and those columns.  A written-back block
  is therefore that block of ONE function of the four arrays, the blocks cover the array, and the array ends holding it.
-/
import proofs.«135502_j20246475833567_2_alg».proof.Proof.Gen.KernelIdeal.Frame
import proofs.«135502_j20246475833567_2_alg».proof.Proof.Pay2
import Idealize.ShloMosaic.Lib.Pipeline.Value

set_option maxRecDepth 16384

noncomputable section

namespace Cert.KernelIdeal.BlocksV

open Idealize.ShloMosaic Idealize.ShloMosaic.TcCoe Idealize.ShloMosaic.ValueIdx Idealize.SL.Sem
open Cert.KernelIdeal Cert.KernelIdeal.Gen Cert.KernelIdeal.PayV
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid.  The activations' and the low-rank activations' block row is the point's
    second coordinate `t % 8`, the weights' block row and the up projection's block column its first coordinate `t / 8`,
    the result's block is at that row and that column; every other block coordinate is 0. -/
theorem idx_facts2 : ∀ t : Fin cfg2.N, win2_0.index t (0 : Fin 2) = t.val % 8 ∧ win2_0.index t (1 : Fin 2) = 0
    ∧ win2_1.index t (0 : Fin 2) = t.val / 8 ∧ win2_1.index t (1 : Fin 2) = 0
    ∧ win2_2.index t (0 : Fin 2) = t.val % 8 ∧ win2_2.index t (1 : Fin 2) = 0
    ∧ win2_3.index t (0 : Fin 2) = 0 ∧ win2_3.index t (1 : Fin 2) = t.val / 8
    ∧ win2_4.index t (0 : Fin 2) = t.val % 8 ∧ win2_4.index t (1 : Fin 2) = t.val / 8 :=
  (by decide +kernel : ∀ t : Fin grid2.N, _)

/-- Four blocks whose rows `r` are rows `R r` of the first and third arrays, whose rows `q` are rows `C q` of the second
    and whose columns `q` are columns `C q` of the fourth multiply and add to entry `(R r, C q)` of the result. -/
theorem blk2_4 (x0 x1 : Vec Ideal S1024x4096 .bf16) (x2 : Vec Ideal S1024x32 .f32) (x3 : Vec Ideal S32x1024 .f32)
    (A : (⟨2, ![8192, 4096]⟩ : Shape).Idx → EReal) (W : (⟨2, ![4096, 4096]⟩ : Shape).Idx → EReal)
    (L : (⟨2, ![8192, 32]⟩ : Shape).Idx → EReal) (UT : (⟨2, ![32, 4096]⟩ : Shape).Idx → EReal)
    (R : Fin 1024 → Fin 8192) (C : Fin 1024 → Fin 4096)
    (h0 : ∀ (r : Fin 1024) (k : Fin 4096), x0 (ix2 r k) = A (ix2 (R r) k))
    (h1 : ∀ (q : Fin 1024) (k : Fin 4096), x1 (ix2 q k) = W (ix2 (C q) k))
    (h2 : ∀ (r : Fin 1024) (s : Fin 32), x2 (ix2 r s) = L (ix2 (R r) s))
    (h3 : ∀ (s : Fin 32) (q : Fin 1024), x3 (ix2 s q) = UT (ix2 s (C q))) (r q : Fin 1024) :
    k2_pay1 (F := Ideal) x0 x1 x2 x3 (ix2 r q) = Cert.W4A4.OUTk A W L UT (ix2 (R r) (C q)) := by
  rw [pay2_apply]
  show Cert.W4A4.out _ _ _ _ = Cert.W4A4.out (fun k => A (ix2 (R r) k)) (fun k => W (ix2 (C q) k))
    (fun s => L (ix2 (R r) s)) (fun s => UT (ix2 s (C q)))
  rw [funext (h0 r), funext (h1 q), funext (h2 r), funext fun s => h3 s q]

/-- What point `t` writes back is block `t` of the product-plus-correction array of the arrays the region finds. -/
theorem flushed2_4_eq (c : Dev nD) (t : Fin cfg2.N) :
    (dat2 V c).flushed 4 t = ((cfg2.win 4).blk t).view.read (Elt Ideal)
      (Cert.W4A4.OUTk (V c main_v1_0) (V c main_v3) (V c main_v1_1) (V c main_v4)) := by
  show (cfg2.win 4).cut (grid2.coords t) ((dat2 V c).after 4 t) = _
  rw [after2_4]
  unfold out2_4
  rw [View.canon_unit_zero hz2]
  simp only [View.ld_unit_zero (S := S1024x4096) hz2, View.ld_unit_zero (S := S1024x32) hz2,
    View.ld_unit_zero (S := S32x1024) hz2]
  obtain ⟨e0, e1, e2, e3, e4, e5, e6, e7, e8, e9⟩ := idx_facts2 t
  have ht : t.val < 32 := lt_of_lt_of_eq t.isLt N_2
  funext j
  obtain ⟨r, q, rfl⟩ : ∃ (r : Fin 1024) (q : Fin 1024), j = ix2 r q := ⟨j 0, j 1, eq_ix2 j⟩
  refine (blk2_4 _ _ _ _ (V c main_v1_0) (V c main_v3) (V c main_v1_1) (V c main_v4)
    (fun r => ⟨t.val % 8 * 1024 + r.val, by have := r.isLt; omega⟩)
    (fun q => ⟨t.val / 8 * 1024 + q.val, by have := q.isLt; omega⟩) ?_ ?_ ?_ ?_ r q).trans ?_
  · intro r k
    show V c main_v1_0 (((cfg2.win 0).blk t).view.emb (ix2 r k)) = V c main_v1_0 (ix2 _ k)
    refine congrArg _ (funext fun a => Fin.ext ?_)
    match a with
    | ⟨0, _⟩ => show win2_0.index t (0 : Fin 2) * 1024 + 1 * r.val = t.val % 8 * 1024 + r.val; omega
    | ⟨1, _⟩ => show win2_0.index t (1 : Fin 2) * 4096 + 1 * k.val = k.val; omega
  · intro q k
    show V c main_v3 (((cfg2.win 1).blk t).view.emb (ix2 q k)) = V c main_v3 (ix2 _ k)
    refine congrArg _ (funext fun a => Fin.ext ?_)
    match a with
    | ⟨0, _⟩ => show win2_1.index t (0 : Fin 2) * 1024 + 1 * q.val = t.val / 8 * 1024 + q.val; omega
    | ⟨1, _⟩ => show win2_1.index t (1 : Fin 2) * 4096 + 1 * k.val = k.val; omega
  · intro r s
    show V c main_v1_1 (((cfg2.win 2).blk t).view.emb (ix2 r s)) = V c main_v1_1 (ix2 _ s)
    refine congrArg _ (funext fun a => Fin.ext ?_)
    match a with
    | ⟨0, _⟩ => show win2_2.index t (0 : Fin 2) * 1024 + 1 * r.val = t.val % 8 * 1024 + r.val; omega
    | ⟨1, _⟩ => show win2_2.index t (1 : Fin 2) * 32 + 1 * s.val = s.val; omega
  · intro s q
    show V c main_v4 (((cfg2.win 3).blk t).view.emb (ix2 s q)) = V c main_v4 (ix2 s _)
    refine congrArg _ (funext fun a => Fin.ext ?_)
    match a with
    | ⟨0, _⟩ => show win2_3.index t (0 : Fin 2) * 32 + 1 * s.val = s.val; omega
    | ⟨1, _⟩ => show win2_3.index t (1 : Fin 2) * 1024 + 1 * q.val = t.val / 8 * 1024 + q.val; omega
  · show Cert.W4A4.OUTk (V c main_v1_0) (V c main_v3) (V c main_v1_1) (V c main_v4) _
      = Cert.W4A4.OUTk (V c main_v1_0) (V c main_v3) (V c main_v1_1) (V c main_v4) (((cfg2.win 4).blk t).view.emb (ix2 r q))
    refine congrArg _ (funext fun a => Fin.ext ?_)
    match a with
    | ⟨0, _⟩ => show t.val % 8 * 1024 + r.val = win2_4.index t (0 : Fin 2) * 1024 + 1 * r.val; omega
    | ⟨1, _⟩ => show t.val / 8 * 1024 + q.val = win2_4.index t (1 : Fin 2) * 1024 + 1 * q.val; omega

/-- An index of the array is in point `t`'s block iff each coordinate is in the block's range on its axis. -/
theorem mem_blk2_4 (t : Fin cfg2.N) (i : S8192x4096.Idx) :
    i ∈ ((cfg2.win 4).blk t).view.set ↔ ∀ a : Fin 2, win2_4.index t a * S1024x1024.size a ≤ (i a).val ∧ (i a).val < win2_4.index t a * S1024x1024.size a + S1024x1024.size a := by
  show i ∈ ((View.whole main_v5).slice (win2_4.rect t)).set ↔ _
  rw [View.set_slice_whole, Rect.mem_set_unit]
  exact Iff.rfl

/-- Every index (i0, i1) lies in the block of the point (i1 / 1024)·8 + i0 / 1024. -/
theorem cover2_4 (i : S8192x4096.Idx) : ∃ t : Fin cfg2.N, (cfg2.win 4).flush t = true ∧ i ∈ ((cfg2.win 4).blk t).view.set := by
  have hi0 : (i 0).val < 8192 := (i 0).isLt
  have hi1 : (i 1).val < 4096 := (i 1).isLt
  let t : Fin cfg2.N := ⟨(i 1).val / 1024 * 8 + (i 0).val / 1024, by rw [show cfg2.N = 32 from N_2]; omega⟩
  obtain ⟨e0, e1, e2, e3, e4, e5, e6, e7, e8, e9⟩ := idx_facts2 t
  have ht : t.val = (i 1).val / 1024 * 8 + (i 0).val / 1024 := rfl
  refine ⟨t, flush2_4 t, ?_⟩
  rw [mem_blk2_4]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 1024 ≤ (i 1).val ∧ (i 1).val < win2_4.index t (1 : Fin 2) * 1024 + 1024; omega

/-- The result array after the region. -/
theorem final2_4 (c : Dev nD) :
    (dat2 V c).arrAt 4 cfg2.N = Cert.W4A4.OUTk (V c main_v1_0) (V c main_v3) (V c main_v1_1) (V c main_v4) :=
  (dat2 V c).arrAt_eq_of_cover 4 _ (fun t _ => flushed2_4_eq V c t) cover2_4

end Cert.KernelIdeal.BlocksV

end
-- ==== Proof.Chain.lean ====
/-
  The result buffer at the end of the kernel program's run, as one function of the six argument arrays.

  The third kernel's array is the product-and-correction of three intermediate arrays and the transposed up projection;
  the intermediate arrays are the first two kernels' arrays, each a function of argument arrays and of re-laid copies
  of arguments (the smoothing factors as one row, the group scales transposed).  Substituting each into the next and
  reading the re-laid copies at their entries gives the specification's function of the arguments.
-/
import proofs.«135502_j20246475833567_2_alg».proof.Proof.KernelRun
import proofs.«135502_j20246475833567_2_alg».proof.Proof.Blocks0
import proofs.«135502_j20246475833567_2_alg».proof.Proof.Blocks1
import proofs.«135502_j20246475833567_2_alg».proof.Proof.Blocks2
import proofs.«135502_j20246475833567_2_alg».proof.Proof.Spec
import Idealize.ShloMosaic.Lib.ValueLayout

set_option maxRecDepth 16384

noncomputable section

namespace Cert.KernelIdeal.RunV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The result buffer at the end of the run is the specification's function of the six argument arrays as launched:
    the third region's array over the first two regions' arrays, each over the arguments and their re-laid copies. -/
theorem v5_value (c : Dev nD) :
    Gen.W6 m ρ c (Proc.devRef .tc main_v5)
      = Cert.W4A4.OUT (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [v5_eq, Cert.KernelIdeal.BlocksV.final2_4 (Gen.V5 m ρ) c, V5_v1_0, V5_v1_1, V5_v3, V5_v4,
    Cert.KernelIdeal.BlocksV.final0_3 (Gen.V1 m ρ) c, Cert.KernelIdeal.BlocksV.final0_4 (Gen.V1 m ρ) c,
    Cert.KernelIdeal.BlocksV.final1_2 (Gen.V3 m ρ) c, V1_arg0, V1_v0, V1_arg4, V3_arg1, V3_v2]
  exact Cert.W4A4.OUTk_eq_OUT _ _ _ _ _ _ _ _ _ (fun k => shapeCast_a_1a_apply _ _ 0 k)
    (fun o g => transpose_ix2_apply _ _ o g) (fun r o => transpose_ix2_apply _ _ r o)

end Cert.KernelIdeal.RunV

end
-- ==== Proof.lean ====
/-
  The certificate of a 4-bit-activation × 4-bit-weight linear layer with a low-rank correction, computed by three
  pipelined kernels, against its plain reference.

  Both programs compute, for token row t and output channel o,
      Σ k, xdq t k · wdq o k  +  Σ r, la t r · U o r,
  where xs t k = x t k / s k is the smoothed activation; within each group of 64 consecutive k the scale is
  (max |xs|) / 7, or 1 where that is 0; xdq t k = clip(round-half-even(xs t k / scale), -8, 7) · scale;
  la t r = Σ k, xs t k · D k r; and wdq o k = (w o k as a real) · c (k / 64) o.
  The first kernel produces xdq and la from row blocks of x, the second wdq from row blocks of w and the transposed
  scales, the third the two products and their sum from blocks of those three arrays and the transposed U.  Over the
  extended reals a change of float format is the identity, a matrix product is the plain sum over the contracted index
  and a lane maximum the fold of max, so each kernel's array is the reference's intermediate entry by entry, whatever
  the tiling; no algebraic law beyond re-indexing joins the two sides, and the finiteness of the inputs is not used.
  The reference's literals (7, 0, 1, -8, -∞ as the start of the maximum) are the kernel's, word for word.
-/
import proofs.«135502_j20246475833567_2_alg».proof.Defs
import proofs.«135502_j20246475833567_2_alg».proof.Proof.Gen.Kernel
import proofs.«135502_j20246475833567_2_alg».proof.Proof.Gen.Kernel.Frame
import proofs.«135502_j20246475833567_2_alg».proof.Proof.Gen.KernelIdeal
import proofs.«135502_j20246475833567_2_alg».proof.Proof.Gen.KernelIdeal.Frame
import proofs.«135502_j20246475833567_2_alg».proof.Proof.Gen.ReferenceIdeal
import proofs.«135502_j20246475833567_2_alg».proof.Proof.Gen.ReferenceIdeal.Run
import proofs.«135502_j20246475833567_2_alg».proof.Proof.Gen.ReferenceIdeal.Read
import proofs.«135502_j20246475833567_2_alg».proof.Proof.Gen.Pre_finite_inputs
import proofs.«135502_j20246475833567_2_alg».proof.Proof.RefValue
import proofs.«135502_j20246475833567_2_alg».proof.Proof.Chain

noncomputable section

namespace Cert.Proof

open Idealize.ShloMosaic Idealize.ShloMosaic.TcCoe Idealize.SL.Sem

/-- The word-level kernel runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does the kernel over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the six arguments both programs end with the result array holding the same function of
    those arguments, entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.W4A4.OUT (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.RunV.v5_value m ρ c), (h c).2⟩)
      (Cert.KernelIdeal.RunV.run_main m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v32_eq, Cert.ReferenceIdeal.RefValue.ref_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
